-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S3200000 : Shape := ⟨1, ![3200000]⟩
abbrev S8x4 : Shape := ⟨2, ![8, 4]⟩
abbrev S8 : Shape := ⟨1, ![8]⟩
abbrev S16x8 : Shape := ⟨2, ![16, 8]⟩
abbrev S16 : Shape := ⟨1, ![16]⟩
abbrev S32x16 : Shape := ⟨2, ![32, 16]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S8x4 : S_.BroadcastsInDim S8x4 (![] : Fin 0 → Fin S8x4.rank)
  reducesTo_S8x4_S_d0_1 : S8x4.ReducesTo [0, 1] S_
  bcast_S_S8 : S_.BroadcastsInDim S8 (![] : Fin 0 → Fin S8.rank)
  reducesTo_S8_S_d0 : S8.ReducesTo [0] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32 .f32) (main_arg9 : FVec F S2x32 .f32) (main_arg10 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S2x32 .f32 := Host.absf main_arg9
  let main_cst_14 : FVec F S_ .f32 := constant S_ .f32 0x7F800000#32
  let main_v40 : FVec F S2x32 .f32 := broadcastInDim S2x32 ![] bcast_S_S2x32 main_cst_14
  let main_v41 : IVec S2x32 1 := cmpf .olt main_v39 main_v40
  let main_c_15 : IVec S_ 1 := constantI S_ 1 1#1
  let main_v42 : IVec S_ 1 := (fun x v => Host.reduce IntOp.andi x v reducesTo_S2x32_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S16x8 .f32) (main_arg6 : FVec F S16 .f32) (main_arg7 : FVec F S32x16 .f32) (main_arg8 : FVec F S32 .f32) (main_arg9 : FVec F S2x32 .f32) (main_arg10 : FVec F S2 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x4 .f32) (main_arg1 : IVec S2x3200000 32) (main_arg2 : FVec F S3200000 .f32) (main_arg3 : FVec F S8x4 .f32) (main_arg4 : FVec F S8 .f32) (main_arg5 : FVec F S16x8 .f32) (main_arg6 : FVec F S16 .f32) (main_arg7 : FVec F S32x16 .f32) (main_arg8 : FVec F S32 .f32) (main_arg9 : FVec F S2x32 .f32) (main_arg10 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S8x4 .f32 := Host.absf main_arg3
  let main_cst_2 : FVec F S_ .f32 := constant S_ .f32 0x7F800000#32
  let main_v10 : FVec F S8x4 .f32 := broadcastInDim S8x4 ![] bcast_S_S8x4 main_cst_2
  let main_v11 : IVec S8x4 1 := cmpf .olt main_v9 main_v10
  let main_c_3 : IVec S_ 1 := constantI S_ 1 1#1
  let main_v12 : IVec S_ 1 := (fun x v => Host.reduce IntOp.andi x v reducesTo_S8x4_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_arg9 main_arg10 main_v13 main_v16
-- ==== Kernel.lean ====
abbrev S100000x4 : Shape := ⟨2, ![100000, 4]⟩
abbrev S2x3200000 : Shape := ⟨2, ![2, 3200000]⟩
abbrev S3200000 : Shape := ⟨1, ![3200000]⟩
abbrev S8x4 : Shape := ⟨2, ![8, 4]⟩
abbrev S8 : Shape := ⟨1, ![8]⟩
abbrev S16x8 : Shape := ⟨2, ![16, 8]⟩
abbrev S16 : Shape := ⟨1, ![16]⟩
abbrev S32x16 : Shape := ⟨2, ![32, 16]⟩
abbrev S32 : Shape := ⟨1, ![32]⟩
abbrev S2x32 : Shape := ⟨2, ![2, 32]⟩
abbrev S2 : Shape := ⟨1, ![2]⟩
abbrev S1x3200000 : Shape := ⟨2, ![1, 3200000]⟩
abbrev S3200000x1 : Shape := ⟨2, ![3200000, 1]⟩
abbrev S_ : Shape := ⟨0, ![]⟩
abbrev S100000 : Shape := ⟨1, ![100000]⟩
abbrev S100000x1 : Shape := ⟨2, ![100000, 1]⟩
abbrev S3200000x4 : Shape := ⟨2, ![3200000, 4]⟩
abbrev S4x8 : Shape := ⟨2, ![4, 8]⟩
abbrev S1x8 : Shape := ⟨2, ![1, 8]⟩
abbrev S3200000x8 : Shape := ⟨2, ![3200000, 8]⟩
abbrev S8000x4 : Shape := ⟨2, ![8000, 4]⟩
abbrev S8000x1 : Shape := ⟨2, ![8000, 1]⟩
abbrev S8000x8 : Shape := ⟨2, ![8000, 8]⟩
abbrev S100000x8 : Shape := ⟨2, ![100000, 8]⟩
abbrev S8x16 : Shape := ⟨2, ![8, 16]⟩
abbrev S1x16 : Shape := ⟨2, ![1, 16]⟩
abbrev S3200000x16 : Shape := ⟨2, ![3200000, 16]⟩
abbrev S8000x16 : Shape := ⟨2, ![8000, 16]⟩
abbrev S100000x16 : Shape := ⟨2, ![100000, 16]⟩
abbrev S16x32 : Shape := ⟨2, ![16, 32]⟩
abbrev S1x32 : Shape := ⟨2, ![1, 32]⟩
abbrev S3200000x32 : Shape := ⟨2, ![3200000, 32]⟩
abbrev S8000x32 : Shape := ⟨2, ![8000, 32]⟩
abbrev S100000x32 : Shape := ⟨2, ![100000, 32]⟩
abbrev S32x2 : Shape := ⟨2, ![32, 2]⟩
abbrev S1x2 : Shape := ⟨2, ![1, 2]⟩
abbrev S1 : Shape := ⟨1, ![1]⟩
abbrev S1x1 : Shape := ⟨2, ![1, 1]⟩

abbrev nBuf : Space → Nat
  | .hbm => 151
  | .vmem => 24
  | .smem => 0
  | _ => 0

abbrev hbmTy0_0 (i : Nat) : BufTy := match i % 128 with
  | 0 => ⟨S100000x4, .f32⟩
  | 1 => ⟨S2x3200000, .i32⟩
  | 2 => ⟨S3200000, .f32⟩
  | 3 => ⟨S8x4, .f32⟩
  | 4 => ⟨S8, .f32⟩
  | 5 => ⟨S16x8, .f32⟩
  | 6 => ⟨S16, .f32⟩
  | 7 => ⟨S32x16, .f32⟩
  | 8 => ⟨S32, .f32⟩
  | 9 => ⟨S2x32, .f32⟩
  | 10 => ⟨S2, .f32⟩
  | 11 => ⟨S1x3200000, .i32⟩
  | 12 => ⟨S3200000, .i32⟩
  | 13 => ⟨S1x3200000, .i32⟩
  | 14 => ⟨S3200000, .i32⟩
  | 15 => ⟨S3200000x1, .f32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x4, .f32⟩
  | 45 => ⟨S4x8, .f32⟩
  | 46 => ⟨S1x8, .f32⟩
  | 47 => ⟨S3200000x8, .f32⟩
  | 48 => ⟨S_, .f32⟩
  | 49 => ⟨S100000x8, .f32⟩
  | 50 => ⟨S3200000x1, .i32⟩
  | 51 => ⟨S100000x8, .f32⟩
  | 52 => ⟨S100000x8, .f32⟩
  | 53 => ⟨S100000x8, .f32⟩
  | 54 => ⟨S100000x8, .f32⟩
  | 55 => ⟨S1x8, .f32⟩
  | 56 => ⟨S100000x8, .f32⟩
  | 57 => ⟨S100000x8, .f32⟩
  | 58 => ⟨S_, .f32⟩
  | 59 => ⟨S100000x8, .f32⟩
  | 60 => ⟨S100000x8, .i1⟩
  | 61 => ⟨S_, .f32⟩
  | 62 => ⟨S100000x8, .f32⟩
  | 63 => ⟨S100000x8, .f32⟩
  | 64 => ⟨S100000x8, .f32⟩
  | 65 => ⟨S100000x8, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x8, .f32⟩
  | 75 => ⟨S8x16, .f32⟩
  | 76 => ⟨S1x16, .f32⟩
  | 77 => ⟨S3200000x16, .f32⟩
  | 78 => ⟨S_, .f32⟩
  | 79 => ⟨S100000x16, .f32⟩
  | 80 => ⟨S3200000x1, .i32⟩
  | 81 => ⟨S100000x16, .f32⟩
  | 82 => ⟨S100000x16, .f32⟩
  | 83 => ⟨S100000x16, .f32⟩
  | 84 => ⟨S100000x16, .f32⟩
  | 85 => ⟨S1x16, .f32⟩
  | 86 => ⟨S100000x16, .f32⟩
  | 87 => ⟨S100000x16, .f32⟩
  | 88 => ⟨S_, .f32⟩
  | 89 => ⟨S100000x16, .f32⟩
  | 90 => ⟨S100000x16, .i1⟩
  | 91 => ⟨S_, .f32⟩
  | 92 => ⟨S100000x16, .f32⟩
  | 93 => ⟨S100000x16, .f32⟩
  | 94 => ⟨S100000x16, .f32⟩
  | 95 => ⟨S100000x16, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x16, .f32⟩
  | 105 => ⟨S16x32, .f32⟩
  | 106 => ⟨S1x32, .f32⟩
  | 107 => ⟨S3200000x32, .f32⟩
  | 108 => ⟨S_, .f32⟩
  | 109 => ⟨S100000x32, .f32⟩
  | 110 => ⟨S3200000x1, .i32⟩
  | 111 => ⟨S100000x32, .f32⟩
  | 112 => ⟨S100000x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S100000x32, .f32⟩
  | 120 => ⟨S100000x32, .i1⟩
  | 121 => ⟨S_, .f32⟩
  | 122 => ⟨S100000x32, .f32⟩
  | 123 => ⟨S100000x32, .f32⟩
  | 124 => ⟨S100000x32, .f32⟩
  | 125 => ⟨S100000x32, .f32⟩
  | 126 => ⟨S_, .f32⟩
  | 127 => ⟨S32, .f32⟩
  | _ => ⟨S100000x4, .f32⟩

abbrev hbmTy0_1 (i : Nat) : BufTy := match i % 128 with
  | 0 => ⟨S1x32, .f32⟩
  | 1 => ⟨S_, .f32⟩
  | 2 => ⟨S1x32, .f32⟩
  | 3 => ⟨S1x32, .f32⟩
  | 4 => ⟨S32x2, .f32⟩
  | 5 => ⟨S1x2, .f32⟩
  | 6 => ⟨S1x2, .f32⟩
  | 7 => ⟨S1x2, .f32⟩
  | 8 => ⟨S_, .f32⟩
  | 9 => ⟨S1, .f32⟩
  | 10 => ⟨S_, .f32⟩
  | 11 => ⟨S1, .f32⟩
  | 12 => ⟨S1, .f32⟩
  | 13 => ⟨S1x1, .f32⟩
  | 14 => ⟨S1x2, .f32⟩
  | 15 => ⟨S1x2, .f32⟩
  | 16 => ⟨S1x2, .f32⟩
  | 17 => ⟨S_, .f32⟩
  | 18 => ⟨S1, .f32⟩
  | 19 => ⟨S1x1, .f32⟩
  | 20 => ⟨S1x1, .f32⟩
  | 21 => ⟨S1x2, .f32⟩
  | 22 => ⟨S1x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S8000x4, .f32⟩
  | .local _ .vmem, ⟨1, _⟩ => ⟨S8000x4, .f32⟩
  | .local _ .vmem, ⟨2, _⟩ => ⟨S8000x1, .f32⟩
  | .local _ .vmem, ⟨3, _⟩ => ⟨S8000x1, .f32⟩
  | .local _ .vmem, ⟨4, _⟩ => ⟨S4x8, .f32⟩
  | .local _ .vmem, ⟨5, _⟩ => ⟨S1x8, .f32⟩
  | .local _ .vmem, ⟨6, _⟩ => ⟨S8000x8, .f32⟩
  | .local _ .vmem, ⟨7, _⟩ => ⟨S8000x8, .f32⟩
  | .local _ .vmem, ⟨8, _⟩ => ⟨S8000x8, .f32⟩
  | .local _ .vmem, ⟨9, _⟩ => ⟨S8000x8, .f32⟩
  | .local _ .vmem, ⟨10, _⟩ => ⟨S8000x1, .f32⟩
  | .local _ .vmem, ⟨11, _⟩ => ⟨S8000x1, .f32⟩
  | .local _ .vmem, ⟨12, _⟩ => ⟨S8x16, .f32⟩
  | .local _ .vmem, ⟨13, _⟩ => ⟨S1x16, .f32⟩
  | .local _ .vmem, ⟨14, _⟩ => ⟨S8000x16, .f32⟩
  | .local _ .vmem, ⟨15, _⟩ => ⟨S8000x16, .f32⟩
  | .local _ .vmem, ⟨16, _⟩ => ⟨S8000x16, .f32⟩
  | .local _ .vmem, ⟨17, _⟩ => ⟨S8000x16, .f32⟩
  | .local _ .vmem, ⟨18, _⟩ => ⟨S8000x1, .f32⟩
  | .local _ .vmem, ⟨19, _⟩ => ⟨S8000x1, .f32⟩
  | .local _ .vmem, ⟨20, _⟩ => ⟨S16x32, .f32⟩
  | .local _ .vmem, ⟨21, _⟩ => ⟨S1x32, .f32⟩
  | .local _ .vmem, ⟨22, _⟩ => ⟨S8000x32, .f32⟩
  | .local _ .vmem, ⟨23, _⟩ => ⟨S8000x32, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_v57 : Ref sig .tc := ⟨.hbm, 94, rfl⟩
abbrev main_v58 : Ref sig .tc := ⟨.hbm, 95, rfl⟩
abbrev main_c_10 : Ref sig .tc := ⟨.hbm, 96, rfl⟩
abbrev main_v59 : Ref sig .tc := ⟨.hbm, 97, rfl⟩
abbrev main_v60 : Ref sig .tc := ⟨.hbm, 98, rfl⟩
abbrev main_c_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_v78 : Ref sig .tc := ⟨.hbm, 124, rfl⟩
abbrev main_v79 : Ref sig .tc := ⟨.hbm, 125, rfl⟩
abbrev main_cst_13 : Ref sig .tc := ⟨.hbm, 126, rfl⟩
abbrev main_v80 : Ref sig .tc := ⟨.hbm, 127, rfl⟩
abbrev main_v81 : Ref sig .tc := ⟨.hbm, 128, rfl⟩
abbrev main_cst_14 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call4_cst : Ref sig .tc := ⟨.hbm, 136, rfl⟩
abbrev main_call4_v0 : Ref sig .tc := ⟨.hbm, 137, rfl⟩
abbrev main_call4_cst_0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_cst_1 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_v88 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S3200000_S3200000x1 : S3200000.ShapeCasts S3200000x1
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  transposes_S8x4_S4x8_1_0 : S8x4.Transposes [1, 0] S4x8
  shapeCasts_S8_S1x8 : S8.ShapeCasts S1x8
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x4 : S8000x1.Broadcasts S8000x4
  bitsLt_bf16_f32 : FTy.bits .bf16 < FTy.bits .f32
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8000x8_S8000x8_0_0 : ∀ a, (![0, 0] : Fin 2 → Nat) a + S8000x8.size a ≤ S8000x8.size a
  h_S8000x8 : 0 < S8000x8.numel
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S16x8_S8x16_1_0 : S16x8.Transposes [1, 0] S8x16
  shapeCasts_S16_S1x16 : S16.ShapeCasts S1x16
  shapeCasts_S8000x8_S8000x8 : S8000x8.ShapeCasts S8000x8
  broadcasts_S8000x1_S8000x8 : S8000x1.Broadcasts S8000x8
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S32x16_S16x32_1_0 : S32x16.Transposes [1, 0] S16x32
  shapeCasts_S32_S1x32 : S32.ShapeCasts S1x32
  shapeCasts_S8000x16_S8000x16 : S8000x16.ShapeCasts S8000x16
  broadcasts_S8000x1_S8000x16 : S8000x1.Broadcasts S8000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S1x32 : S_.BroadcastsInDim S1x32 (![] : Fin 0 → Fin S1x32.rank)
  transposes_S2x32_S32x2_1_0 : S2x32.Transposes [1, 0] S32x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S100000_S3200000x1_S3200000_n_0_0_1_wf : ScatterDims.WF S100000 S3200000x1 S3200000 [] [0] [0] 1
  gather_S100000x4_S3200000x1_S3200000x4_1_0_n_n_0_1_14_wf : GatherDims.WF S100000x4 S3200000x1 S3200000x4 [1] [0] [] [0] [] 1 ![1, 4]
  dot_S8000x4_S4x8_S8000x8_1_0_0_1_n_n_wf : DotDims.WF S8000x4 S4x8 S8000x8 [1] [0] [0] [1] [] []
  scatter_S100000x8_S3200000x1_S3200000x8_1_0_0_1_wf : ScatterDims.WF S100000x8 S3200000x1 S3200000x8 [1] [0] [0] 1
  dot_S100000x4_S4x8_S100000x8_1_0_0_1_n_n_wf : DotDims.WF S100000x4 S4x8 S100000x8 [1] [0] [0] [1] [] []
  gather_S100000x8_S3200000x1_S3200000x8_1_0_n_n_0_1_18_wf : GatherDims.WF S100000x8 S3200000x1 S3200000x8 [1] [0] [] [0] [] 1 ![1, 8]
  dot_S8000x8_S8x16_S8000x16_1_0_0_1_n_n_wf : DotDims.WF S8000x8 S8x16 S8000x16 [1] [0] [0] [1] [] []
  scatter_S100000x16_S3200000x1_S3200000x16_1_0_0_1_wf : ScatterDims.WF S100000x16 S3200000x1 S3200000x16 [1] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  dot_S8000x16_S16x32_S8000x32_1_0_0_1_n_n_wf : DotDims.WF S8000x16 S16x32 S8000x32 [1] [0] [0] [1] [] []
  scatter_S100000x32_S3200000x1_S3200000x32_1_0_0_1_wf : ScatterDims.WF S100000x32 S3200000x1 S3200000x32 [1] [0] [0] 1
  dot_S100000x16_S16x32_S100000x32_1_0_0_1_n_n_wf : DotDims.WF S100000x16 S16x32 S100000x32 [1] [0] [0] [1] [] []
  dot_S1x32_S32x2_S1x2_1_0_0_1_n_n_wf : DotDims.WF S1x32 S32x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S3200000x4.size a
  hwx0_0 : ∀ i : grid0.Coords, EltTy.bits .f32 = 32 ∨ (Rect.block (s := S3200000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S3200000x1.size a
  hwx0_1 : ∀ i : grid0.Coords, EltTy.bits .f32 = 32 ∨ (Rect.block (s := S3200000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8.size a ≤ S4x8.size a
  hwx0_2 : ∀ i : grid0.Coords, EltTy.bits .f32 = 32 ∨ (Rect.block (s := S4x8) S4x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x8.size a ≤ S3200000x8.size a
  hwx0_4 : ∀ i : grid0.Coords, EltTy.bits .f32 = 32 ∨ (Rect.block (s := S3200000x8) S8000x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x8.size a ≤ S3200000x8.size a
  hwx1_0 : ∀ i : grid1.Coords, EltTy.bits .f32 = 32 ∨ (Rect.block (s := S3200000x8) S8000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S3200000x1.size a
  hwx1_1 : ∀ i : grid1.Coords, EltTy.bits .f32 = 32 ∨ (Rect.block (s := S3200000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x16.size a ≤ S3200000x16.size a
  hwx1_4 : ∀ i : grid1.Coords, EltTy.bits .f32 = 32 ∨ (Rect.block (s := S3200000x16) S8000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S3200000x16.size a
  hwx2_0 : ∀ i : grid2.Coords, EltTy.bits .f32 = 32 ∨ (Rect.block (s := S3200000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S3200000x1.size a
  hwx2_1 : ∀ i : grid2.Coords, EltTy.bits .f32 = 32 ∨ (Rect.block (s := S3200000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x32.size a ≤ S16x32.size a
  hwx2_2 : ∀ i : grid2.Coords, EltTy.bits .f32 = 32 ∨ (Rect.block (s := S16x32) S16x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x32.size a ≤ S3200000x32.size a
  hwx2_4 : ∀ i : grid2.Coords, EltTy.bits .f32 = 32 ∨ (Rect.block (s := S3200000x32) S8000x32.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S8000x4_S4x8_S8000x8_1_0_0_1_n_n : DotDims S8000x4 S4x8 S8000x8 where
  lhsContracting := [1]
  rhsContracting := [0]
  lhsNonContracting := [0]
  rhsNonContracting := [1]
  lhsBatch := []
  rhsBatch := []
  wf := dot_S8000x4_S4x8_S8000x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x4_S4x8_S100000x8_1_0_0_1_n_n : DotDims S100000x4 S4x8 S100000x8 where
  lhsContracting := [1]
  rhsContracting := [0]
  lhsNonContracting := [0]
  rhsNonContracting := [1]
  lhsBatch := []
  rhsBatch := []
  wf := dot_S100000x4_S4x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S8000x8_S8x16_S8000x16_1_0_0_1_n_n : DotDims S8000x8 S8x16 S8000x16 where
  lhsContracting := [1]
  rhsContracting := [0]
  lhsNonContracting := [0]
  rhsNonContracting := [1]
  lhsBatch := []
  rhsBatch := []
  wf := dot_S8000x8_S8x16_S8000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S8000x16_S16x32_S8000x32_1_0_0_1_n_n : DotDims S8000x16 S16x32 S8000x32 where
  lhsContracting := [1]
  rhsContracting := [0]
  lhsNonContracting := [0]
  rhsNonContracting := [1]
  lhsBatch := []
  rhsBatch := []
  wf := dot_S8000x16_S16x32_S8000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

abbrev win0_0 : Pipeline.Window sig grid0 :=
  Pipeline.Window.ofSpec (Memref.whole main_v23) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S4x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S8000x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S8000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S8000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v65) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S16x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S8000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S3200000 : Shape := ⟨1, ![3200000]⟩
abbrev S8x4 : Shape := ⟨2, ![8, 4]⟩
abbrev S8 : Shape := ⟨1, ![8]⟩
abbrev S16x8 : Shape := ⟨2, ![16, 8]⟩
abbrev S16 : Shape := ⟨1, ![16]⟩
abbrev S32x16 : Shape := ⟨2, ![32, 16]⟩
abbrev S32 : Shape := ⟨1, ![32]⟩
abbrev S2x32 : Shape := ⟨2, ![2, 32]⟩
abbrev S2 : Shape := ⟨1, ![2]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x4 : Shape := ⟨2, ![3200000, 4]⟩
abbrev S4x8 : Shape := ⟨2, ![4, 8]⟩
abbrev S3200000x8 : Shape := ⟨2, ![3200000, 8]⟩
abbrev S1x8 : Shape := ⟨2, ![1, 8]⟩
abbrev S100000x8 : Shape := ⟨2, ![100000, 8]⟩
abbrev S8x16 : Shape := ⟨2, ![8, 16]⟩
abbrev S3200000x16 : Shape := ⟨2, ![3200000, 16]⟩
abbrev S1x16 : Shape := ⟨2, ![1, 16]⟩
abbrev S100000x16 : Shape := ⟨2, ![100000, 16]⟩
abbrev S16x32 : Shape := ⟨2, ![16, 32]⟩
abbrev S3200000x32 : Shape := ⟨2, ![3200000, 32]⟩
abbrev S1x32 : Shape := ⟨2, ![1, 32]⟩
abbrev S100000x32 : Shape := ⟨2, ![100000, 32]⟩
abbrev S32x2 : Shape := ⟨2, ![32, 2]⟩
abbrev S1x2 : Shape := ⟨2, ![1, 2]⟩
abbrev S1 : Shape := ⟨1, ![1]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x4, .f32⟩
  | 1 => ⟨S2x3200000, .i32⟩
  | 2 => ⟨S3200000, .f32⟩
  | 3 => ⟨S8x4, .f32⟩
  | 4 => ⟨S8, .f32⟩
  | 5 => ⟨S16x8, .f32⟩
  | 6 => ⟨S16, .f32⟩
  | 7 => ⟨S32x16, .f32⟩
  | 8 => ⟨S32, .f32⟩
  | 9 => ⟨S2x32, .f32⟩
  | 10 => ⟨S2, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000x1, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000x4, .f32⟩
  | 44 => ⟨S3200000x1, .f32⟩
  | 45 => ⟨S3200000x4, .f32⟩
  | 46 => ⟨S3200000x4, .f32⟩
  | 47 => ⟨S4x8, .f32⟩
  | 48 => ⟨S3200000x8, .f32⟩
  | 49 => ⟨S1x8, .f32⟩
  | 50 => ⟨S3200000x8, .f32⟩
  | 51 => ⟨S3200000x8, .f32⟩
  | 52 => ⟨S_, .f32⟩
  | 53 => ⟨S3200000x8, .f32⟩
  | 54 => ⟨S3200000x8, .i1⟩
  | 55 => ⟨S_, .f32⟩
  | 56 => ⟨S3200000x8, .f32⟩
  | 57 => ⟨S3200000x8, .f32⟩
  | 58 => ⟨S3200000x8, .f32⟩
  | 59 => ⟨S_, .f32⟩
  | 60 => ⟨S100000x8, .f32⟩
  | 61 => ⟨S3200000x1, .i32⟩
  | 62 => ⟨S100000x8, .f32⟩
  | 63 => ⟨S100000x8, .f32⟩
  | 64 => ⟨S100000x8, .f32⟩
  | 65 => ⟨S4x8, .f32⟩
  | 66 => ⟨S100000x8, .f32⟩
  | 67 => ⟨S1x8, .f32⟩
  | 68 => ⟨S100000x8, .f32⟩
  | 69 => ⟨S100000x8, .f32⟩
  | 70 => ⟨S_, .f32⟩
  | 71 => ⟨S100000x8, .f32⟩
  | 72 => ⟨S100000x8, .i1⟩
  | 73 => ⟨S_, .f32⟩
  | 74 => ⟨S100000x8, .f32⟩
  | 75 => ⟨S100000x8, .f32⟩
  | 76 => ⟨S100000x8, .f32⟩
  | 77 => ⟨S100000x8, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x8, .f32⟩
  | 87 => ⟨S3200000x1, .f32⟩
  | 88 => ⟨S3200000x8, .f32⟩
  | 89 => ⟨S3200000x8, .f32⟩
  | 90 => ⟨S8x16, .f32⟩
  | 91 => ⟨S3200000x16, .f32⟩
  | 92 => ⟨S1x16, .f32⟩
  | 93 => ⟨S3200000x16, .f32⟩
  | 94 => ⟨S3200000x16, .f32⟩
  | 95 => ⟨S_, .f32⟩
  | 96 => ⟨S3200000x16, .f32⟩
  | 97 => ⟨S3200000x16, .i1⟩
  | 98 => ⟨S_, .f32⟩
  | 99 => ⟨S3200000x16, .f32⟩
  | 100 => ⟨S3200000x16, .f32⟩
  | 101 => ⟨S3200000x16, .f32⟩
  | 102 => ⟨S_, .f32⟩
  | 103 => ⟨S100000x16, .f32⟩
  | 104 => ⟨S3200000x1, .i32⟩
  | 105 => ⟨S100000x16, .f32⟩
  | 106 => ⟨S100000x16, .f32⟩
  | 107 => ⟨S100000x16, .f32⟩
  | 108 => ⟨S8x16, .f32⟩
  | 109 => ⟨S100000x16, .f32⟩
  | 110 => ⟨S1x16, .f32⟩
  | 111 => ⟨S100000x16, .f32⟩
  | 112 => ⟨S100000x16, .f32⟩
  | 113 => ⟨S_, .f32⟩
  | 114 => ⟨S100000x16, .f32⟩
  | 115 => ⟨S100000x16, .i1⟩
  | 116 => ⟨S_, .f32⟩
  | 117 => ⟨S100000x16, .f32⟩
  | 118 => ⟨S100000x16, .f32⟩
  | 119 => ⟨S100000x16, .f32⟩
  | 120 => ⟨S100000x16, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x4, .f32⟩

abbrev hbmTy0_1 (i : Nat) : BufTy := match i % 128 with
  | 0 => ⟨S3200000x1, .i32⟩
  | 1 => ⟨S3200000x16, .f32⟩
  | 2 => ⟨S3200000x1, .f32⟩
  | 3 => ⟨S3200000x16, .f32⟩
  | 4 => ⟨S3200000x16, .f32⟩
  | 5 => ⟨S16x32, .f32⟩
  | 6 => ⟨S3200000x32, .f32⟩
  | 7 => ⟨S1x32, .f32⟩
  | 8 => ⟨S3200000x32, .f32⟩
  | 9 => ⟨S3200000x32, .f32⟩
  | 10 => ⟨S_, .f32⟩
  | 11 => ⟨S3200000x32, .f32⟩
  | 12 => ⟨S3200000x32, .i1⟩
  | 13 => ⟨S_, .f32⟩
  | 14 => ⟨S3200000x32, .f32⟩
  | 15 => ⟨S3200000x32, .f32⟩
  | 16 => ⟨S3200000x32, .f32⟩
  | 17 => ⟨S_, .f32⟩
  | 18 => ⟨S100000x32, .f32⟩
  | 19 => ⟨S3200000x1, .i32⟩
  | 20 => ⟨S100000x32, .f32⟩
  | 21 => ⟨S100000x32, .f32⟩
  | 22 => ⟨S100000x32, .f32⟩
  | 23 => ⟨S16x32, .f32⟩
  | 24 => ⟨S100000x32, .f32⟩
  | 25 => ⟨S1x32, .f32⟩
  | 26 => ⟨S100000x32, .f32⟩
  | 27 => ⟨S100000x32, .f32⟩
  | 28 => ⟨S_, .f32⟩
  | 29 => ⟨S100000x32, .f32⟩
  | 30 => ⟨S100000x32, .i1⟩
  | 31 => ⟨S_, .f32⟩
  | 32 => ⟨S100000x32, .f32⟩
  | 33 => ⟨S100000x32, .f32⟩
  | 34 => ⟨S100000x32, .f32⟩
  | 35 => ⟨S100000x32, .f32⟩
  | 36 => ⟨S_, .f32⟩
  | 37 => ⟨S32, .f32⟩
  | 38 => ⟨S1x32, .f32⟩
  | 39 => ⟨S_, .f32⟩
  | 40 => ⟨S1x32, .f32⟩
  | 41 => ⟨S1x32, .f32⟩
  | 42 => ⟨S32x2, .f32⟩
  | 43 => ⟨S1x2, .f32⟩
  | 44 => ⟨S1x2, .f32⟩
  | 45 => ⟨S1x2, .f32⟩
  | 46 => ⟨S_, .f32⟩
  | 47 => ⟨S1, .f32⟩
  | 48 => ⟨S_, .f32⟩
  | 49 => ⟨S1, .f32⟩
  | 50 => ⟨S1, .f32⟩
  | 51 => ⟨S1x1, .f32⟩
  | 52 => ⟨S1x2, .f32⟩
  | 53 => ⟨S1x2, .f32⟩
  | 54 => ⟨S1x2, .f32⟩
  | 55 => ⟨S_, .f32⟩
  | 56 => ⟨S1, .f32⟩
  | 57 => ⟨S1x1, .f32⟩
  | 58 => ⟨S1x1, .f32⟩
  | 59 => ⟨S1x2, .f32⟩
  | 60 => ⟨S1x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_cst_0 : Ref sig .tc := ⟨.hbm, 73, rfl⟩
abbrev main_call2_v2 : Ref sig .tc := ⟨.hbm, 74, rfl⟩
abbrev main_call2_v3 : Ref sig .tc := ⟨.hbm, 75, rfl⟩
abbrev main_v42 : Ref sig .tc := ⟨.hbm, 76, rfl⟩
abbrev main_v43 : Ref sig .tc := ⟨.hbm, 77, rfl⟩
abbrev main_c_7 : Ref sig .tc := ⟨.hbm, 78, rfl⟩
abbrev main_v44 : Ref sig .tc := ⟨.hbm, 79, rfl⟩
abbrev main_v45 : Ref sig .tc := ⟨.hbm, 80, rfl⟩
abbrev main_c_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call3_cst : Ref sig .tc := ⟨.hbm, 95, rfl⟩
abbrev main_call3_v0 : Ref sig .tc := ⟨.hbm, 96, rfl⟩
abbrev main_call3_v1 : Ref sig .tc := ⟨.hbm, 97, rfl⟩
abbrev main_call3_cst_0 : Ref sig .tc := ⟨.hbm, 98, rfl⟩
abbrev main_call3_v2 : Ref sig .tc := ⟨.hbm, 99, rfl⟩
abbrev main_call3_v3 : Ref sig .tc := ⟨.hbm, 100, rfl⟩
abbrev main_v59 : Ref sig .tc := ⟨.hbm, 101, rfl⟩
abbrev main_cst_9 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call4_cst : Ref sig .tc := ⟨.hbm, 113, rfl⟩
abbrev main_call4_v0 : Ref sig .tc := ⟨.hbm, 114, rfl⟩
abbrev main_call4_v1 : Ref sig .tc := ⟨.hbm, 115, rfl⟩
abbrev main_call4_cst_0 : Ref sig .tc := ⟨.hbm, 116, rfl⟩
abbrev main_call4_v2 : Ref sig .tc := ⟨.hbm, 117, rfl⟩
abbrev main_call4_v3 : Ref sig .tc := ⟨.hbm, 118, rfl⟩
abbrev main_v70 : Ref sig .tc := ⟨.hbm, 119, rfl⟩
abbrev main_v71 : Ref sig .tc := ⟨.hbm, 120, rfl⟩
abbrev main_c_10 : Ref sig .tc := ⟨.hbm, 121, rfl⟩
abbrev main_v72 : Ref sig .tc := ⟨.hbm, 122, rfl⟩
abbrev main_v73 : Ref sig .tc := ⟨.hbm, 123, rfl⟩
abbrev main_c_11 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call5_cst : Ref sig .tc := ⟨.hbm, 138, rfl⟩
abbrev main_call5_v0 : Ref sig .tc := ⟨.hbm, 139, rfl⟩
abbrev main_call5_v1 : Ref sig .tc := ⟨.hbm, 140, rfl⟩
abbrev main_call5_cst_0 : Ref sig .tc := ⟨.hbm, 141, rfl⟩
abbrev main_call5_v2 : Ref sig .tc := ⟨.hbm, 142, rfl⟩
abbrev main_call5_v3 : Ref sig .tc := ⟨.hbm, 143, rfl⟩
abbrev main_v87 : Ref sig .tc := ⟨.hbm, 144, rfl⟩
abbrev main_cst_12 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_call6_cst : Ref sig .tc := ⟨.hbm, 156, rfl⟩
abbrev main_call6_v0 : Ref sig .tc := ⟨.hbm, 157, rfl⟩
abbrev main_call6_v1 : Ref sig .tc := ⟨.hbm, 158, rfl⟩
abbrev main_call6_cst_0 : Ref sig .tc := ⟨.hbm, 159, rfl⟩
abbrev main_call6_v2 : Ref sig .tc := ⟨.hbm, 160, rfl⟩
abbrev main_call6_v3 : Ref sig .tc := ⟨.hbm, 161, rfl⟩
abbrev main_v98 : Ref sig .tc := ⟨.hbm, 162, rfl⟩
abbrev main_v99 : Ref sig .tc := ⟨.hbm, 163, rfl⟩
abbrev main_cst_13 : Ref sig .tc := ⟨.hbm, 164, rfl⟩
abbrev main_v100 : Ref sig .tc := ⟨.hbm, 165, rfl⟩
abbrev main_v101 : Ref sig .tc := ⟨.hbm, 166, rfl⟩
abbrev main_cst_14 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_call7_cst : Ref sig .tc := ⟨.hbm, 174, rfl⟩
abbrev main_call7_v0 : Ref sig .tc := ⟨.hbm, 175, rfl⟩
abbrev main_call7_cst_0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_v5 : Ref sig .tc := ⟨.hbm, 181, rfl⟩
abbrev main_call7_v6 : Ref sig .tc := ⟨.hbm, 182, rfl⟩
abbrev main_call7_cst_1 : Ref sig .tc := ⟨.hbm, 183, rfl⟩
abbrev main_call7_v7 : Ref sig .tc := ⟨.hbm, 184, rfl⟩
abbrev main_call7_v8 : Ref sig .tc := ⟨.hbm, 185, rfl⟩
abbrev main_call7_v9 : Ref sig .tc := ⟨.hbm, 186, rfl⟩
abbrev main_call7_v10 : Ref sig .tc := ⟨.hbm, 187, rfl⟩
abbrev main_v108 : Ref sig .tc := ⟨.hbm, 188, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S3200000x1_S3200000x4_0_1 : S3200000x1.BroadcastsInDim S3200000x4 (![0, 1] : Fin 2 → Fin S3200000x4.rank)
  transposes_S8x4_S4x8_1_0 : S8x4.Transposes [1, 0] S4x8
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S_S3200000x8 : S_.BroadcastsInDim S3200000x8 (![] : Fin 0 → Fin S3200000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S1x8_S100000x8_0_1 : S1x8.BroadcastsInDim S100000x8 (![0, 1] : Fin 2 → Fin S100000x8.rank)
  bcast_S3200000x1_S3200000x8_0_1 : S3200000x1.BroadcastsInDim S3200000x8 (![0, 1] : Fin 2 → Fin S3200000x8.rank)
  transposes_S16x8_S8x16_1_0 : S16x8.Transposes [1, 0] S8x16
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S1x16_S100000x16_0_1 : S1x16.BroadcastsInDim S100000x16 (![0, 1] : Fin 2 → Fin S100000x16.rank)
  bcast_S3200000x1_S3200000x16_0_1 : S3200000x1.BroadcastsInDim S3200000x16 (![0, 1] : Fin 2 → Fin S3200000x16.rank)
  transposes_S32x16_S16x32_1_0 : S32x16.Transposes [1, 0] S16x32
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S1x32 : S_.BroadcastsInDim S1x32 (![] : Fin 0 → Fin S1x32.rank)
  transposes_S2x32_S32x2_1_0 : S2x32.Transposes [1, 0] S32x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S100000_S3200000x1_S3200000_n_0_0_1_wf : ScatterDims.WF S100000 S3200000x1 S3200000 [] [0] [0] 1
  gather_S100000x4_S3200000x1_S3200000x4_1_0_n_n_0_1_14_wf : GatherDims.WF S100000x4 S3200000x1 S3200000x4 [1] [0] [] [0] [] 1 ![1, 4]
  dot_S3200000x4_S4x8_S3200000x8_1_0_0_1_n_n_wf : DotDims.WF S3200000x4 S4x8 S3200000x8 [1] [0] [0] [1] [] []
  scatter_S100000x8_S3200000x1_S3200000x8_1_0_0_1_wf : ScatterDims.WF S100000x8 S3200000x1 S3200000x8 [1] [0] [0] 1
  dot_S100000x4_S4x8_S100000x8_1_0_0_1_n_n_wf : DotDims.WF S100000x4 S4x8 S100000x8 [1] [0] [0] [1] [] []
  gather_S100000x8_S3200000x1_S3200000x8_1_0_n_n_0_1_18_wf : GatherDims.WF S100000x8 S3200000x1 S3200000x8 [1] [0] [] [0] [] 1 ![1, 8]
  dot_S3200000x8_S8x16_S3200000x16_1_0_0_1_n_n_wf : DotDims.WF S3200000x8 S8x16 S3200000x16 [1] [0] [0] [1] [] []
  scatter_S100000x16_S3200000x1_S3200000x16_1_0_0_1_wf : ScatterDims.WF S100000x16 S3200000x1 S3200000x16 [1] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  dot_S3200000x16_S16x32_S3200000x32_1_0_0_1_n_n_wf : DotDims.WF S3200000x16 S16x32 S3200000x32 [1] [0] [0] [1] [] []
  scatter_S100000x32_S3200000x1_S3200000x32_1_0_0_1_wf : ScatterDims.WF S100000x32 S3200000x1 S3200000x32 [1] [0] [0] 1
  dot_S100000x16_S16x32_S100000x32_1_0_0_1_n_n_wf : DotDims.WF S100000x16 S16x32 S100000x32 [1] [0] [0] [1] [] []
  dot_S1x32_S32x2_S1x2_1_0_0_1_n_n_wf : DotDims.WF S1x32 S32x2 S1x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x4_S4x8_S3200000x8_1_0_0_1_n_n : DotDims S3200000x4 S4x8 S3200000x8 where
  lhsContracting := [1]
  rhsContracting := [0]
  lhsNonContracting := [0]
  rhsNonContracting := [1]
  lhsBatch := []
  rhsBatch := []
  wf := dot_S3200000x4_S4x8_S3200000x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x4_S4x8_S100000x8_1_0_0_1_n_n : DotDims S100000x4 S4x8 S100000x8 where
  lhsContracting := [1]
  rhsContracting := [0]
  lhsNonContracting := [0]
  rhsNonContracting := [1]
  lhsBatch := []
  rhsBatch := []
  wf := dot_S100000x4_S4x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x8_S8x16_S3200000x16_1_0_0_1_n_n : DotDims S3200000x8 S8x16 S3200000x16 where
  lhsContracting := [1]
  rhsContracting := [0]
  lhsNonContracting := [0]
  rhsNonContracting := [1]
  lhsBatch := []
  rhsBatch := []
  wf := dot_S3200000x8_S8x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x16_S16x32_S3200000x32_1_0_0_1_n_n : DotDims S3200000x16 S16x32 S3200000x32 where
  lhsContracting := [1]
  rhsContracting := [0]
  lhsNonContracting := [0]
  rhsNonContracting := [1]
  lhsBatch := []
  rhsBatch := []
  wf := dot_S3200000x16_S16x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

class Facts : Prop extends Facts₀ where

variable [Facts]
-- ==== Proof.KRun.lean ====
/-
  The idealized kernel program's run with every buffer named. Its @main is sixteen segments — host stretches and the
  three Pallas regions — and the generated frame follows the buffer contents through them (`Gen.W0 … Gen.W16`: a host
  stretch folds its operations, a region replaces its output array by what its write-backs leave). The frame theorem
  projects the final state to the arguments; stated here is the same run before that projection: every buffer that
  outlives a region ends at `Gen.W16`.
-/
import proofs.«158551_j56478819942817_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not scoped to a region
    ends at the last boundary's contents `Gen.W16`: the launch over the segments, the last thread state read against the
    final state. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W16 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c b hb => h c _ (mem_uc b hb))

end Cert.KernelIdeal.KRun

end
-- ==== Proof.Spec.lean ====
/-
  The function both programs compute, stated once over whole arrays.

  A graph of 100000 nodes and 3200000 weighted edges (row `edge[0]` the target node, row `edge[1]` the source node, a
  negative source index wrapped once by the node count). Per node, `invCnt` is the reciprocal of the number of edges
  that target it (zero for a node no edge targets). One block with weights `W`, bias `b` maps node features `h` to

      h' = (sum over the edges targeting the node of lrelu ((h[source] * weight) Wᵀ + b)) * invCnt + lrelu (h Wᵀ + b),

  `lrelu y = y` where `y ≥ 0` and `0x3C23D70A * y` elsewhere. Three blocks (4 → 8 → 16 → 32 features), then the mean
  over the nodes, a last linear map to two logits, and their log-softmax.

  The edge sum (`Host.scatterAdd`), the row lookup (`Host.gather`), the products (`Host.dotGeneral`) and the
  reductions are the library's host operations, never opened here: the two programs apply the same ones to the same
  operands, and differ only in how the per-edge stage `edgeK` is computed.
-/
import proofs.«158551_j56478819942817_2_alg».proof.ReferenceIdeal

noncomputable section

namespace Cert.ReferenceIdeal.Spec

open Cert.ReferenceIdeal Idealize.ShloMosaic Idealize.ShloMosaic.TcCoe Idealize.SL.Sem

variable {F : FTy → Type} [FloatOps F] [Facts]
open Facts₀ Facts

/-- Row 0 of the edge list (the target node of each edge), flat. -/
def targets (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- Row 1 of the edge list (the source node of each edge), flat. -/
def sources (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- The targets as a one-column index table. -/
def targetCol (e : (⟨S2x3200000, .i32⟩ : BufTy).Contents (Elt F)) : (⟨S3200000x1, .i32⟩ : BufTy).Contents (Elt F) :=
  broadcastInDim S3200000x1 ![0] bcast_S3200000_S3200000x1_0 (targets e)

/-- The sources, a negative word wrapped once by the node count, as a one-column index table. -/
def sourceCol (e : (⟨S2x3200000, .i32⟩ : BufTy).Contents (Elt F)) : (⟨S3200000x1, .i32⟩ : BufTy).Contents (Elt F) :=
  broadcastInDim S3200000x1 ![0] bcast_S3200000_S3200000x1_0
    (select (cmpi .slt (sources e) (broadcastInDim S3200000 ![] bcast_S_S3200000 (constantI S_ 32 0#32)))
      (addi (sources e) (broadcastInDim S3200000 ![] bcast_S_S3200000 (constantI S_ 32 100000#32))) (sources e))

/-- How many edges target each node. -/
def cnt (e : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32)) (targetCol e)
    (broadcastInDim S3200000 ![] bcast_S_S3200000 (constant S_ .f32 0x3F800000#32))

/-- `1 / max(cnt, 1)` where `cnt > 0`, zero elsewhere, as a column. -/
def invCnt (e : (⟨S2x3200000, .i32⟩ : BufTy).Contents (Elt F)) : (⟨S100000x1, .f32⟩ : BufTy).Contents (Elt F) :=
  broadcastInDim S100000x1 ![0] bcast_S100000_S100000x1_0
    (select (cmpf .ogt (cnt (F := F) e) (broadcastInDim S100000 ![] bcast_S_S100000 (constant S_ .f32 0x00000000#32)))
      (Host.divf (broadcastInDim S100000 ![] bcast_S_S100000 (constant S_ .f32 0x3F800000#32))
        (maximumf (cnt (F := F) e) (broadcastInDim S100000 ![] bcast_S_S100000 (constant S_ .f32 0x3F800000#32))))
      (broadcastInDim S100000 ![] bcast_S_S100000 (constant S_ .f32 0x00000000#32)))

/-- `y` where `y ≥ 0`, `0x3C23D70A * y` elsewhere. -/
def lrelu (S : Shape) (hb : S_.BroadcastsInDim S (![] : Fin 0 → Fin S.rank)) (y : FVec F S .f32) : FVec F S .f32 :=
  select (cmpf .oge y (broadcastInDim S ![] hb (constant S_ .f32 0x00000000#32))) y
    (mulf (broadcastInDim S ![] hb (constant S_ .f32 0x3C23D70A#32)) y)

/-! ## Block 1: 4 → 8 features -/

/-- The per-edge stage: `lrelu ((g * weight) Wᵀ + b)` of the looked-up rows `g`. -/
def edge1 (g : (⟨S3200000x4, .f32⟩ : BufTy).Contents (Elt F)) (w : (⟨S3200000, .f32⟩ : BufTy).Contents (Elt F)) (W : (⟨S8x4, .f32⟩ : BufTy).Contents (Elt F)) (b : (⟨S8, .f32⟩ : BufTy).Contents (Elt F)) : (⟨S3200000x8, .f32⟩ : BufTy).Contents (Elt F) :=
  lrelu S3200000x8 bcast_S_S3200000x8
    (addf (Host.dotGeneral dot_S3200000x4_S4x8_S3200000x8_1_0_0_1_n_n none
        (mulf g (broadcastInDim S3200000x4 ![0, 1] bcast_S3200000x1_S3200000x4_0_1
          (broadcastInDim S3200000x1 ![0] bcast_S3200000_S3200000x1_0 w)))
        (transpose S4x8 [1, 0] W transposes_S8x4_S4x8_1_0))
      (broadcastInDim S3200000x8 ![0, 1] bcast_S1x8_S3200000x8_0_1 (broadcastInDim S1x8 ![1] bcast_S8_S1x8_1 b)))

/-- The per-node stage: the messages summed at their targets, scaled by `invCnt`, plus the node's own term. -/
def node1 (msg : (⟨S3200000x8, .f32⟩ : BufTy).Contents (Elt F)) (e : (⟨S2x3200000, .i32⟩ : BufTy).Contents (Elt F)) (h : (⟨S100000x4, .f32⟩ : BufTy).Contents (Elt F)) (W : (⟨S8x4, .f32⟩ : BufTy).Contents (Elt F)) (b : (⟨S8, .f32⟩ : BufTy).Contents (Elt F)) : (⟨S100000x8, .f32⟩ : BufTy).Contents (Elt F) :=
  addf
    (mulf (Host.scatterAdd scatter_S100000x8_S3200000x1_S3200000x8_1_0_0_1
        (broadcastInDim S100000x8 ![] bcast_S_S100000x8 (constant S_ .f32 0x00000000#32)) (targetCol e) msg)
      (broadcastInDim S100000x8 ![0, 1] bcast_S100000x1_S100000x8_0_1 (invCnt (F := F) e)))
    (lrelu S100000x8 bcast_S_S100000x8
      (addf (Host.dotGeneral dot_S100000x4_S4x8_S100000x8_1_0_0_1_n_n none h (transpose S4x8 [1, 0] W transposes_S8x4_S4x8_1_0))
        (broadcastInDim S100000x8 ![0, 1] bcast_S1x8_S100000x8_0_1 (broadcastInDim S1x8 ![1] bcast_S8_S1x8_1 b))))

/-- The rows of `h` at the edges' sources. -/
def look1 (e : (⟨S2x3200000, .i32⟩ : BufTy).Contents (Elt F)) (h : (⟨S100000x4, .f32⟩ : BufTy).Contents (Elt F)) : (⟨S3200000x4, .f32⟩ : BufTy).Contents (Elt F) :=
  Host.gather gather_S100000x4_S3200000x1_S3200000x4_1_0_n_n_0_1_14 h (sourceCol e)

def block1 (e : (⟨S2x3200000, .i32⟩ : BufTy).Contents (Elt F)) (w : (⟨S3200000, .f32⟩ : BufTy).Contents (Elt F)) (h : (⟨S100000x4, .f32⟩ : BufTy).Contents (Elt F)) (W : (⟨S8x4, .f32⟩ : BufTy).Contents (Elt F)) (b : (⟨S8, .f32⟩ : BufTy).Contents (Elt F)) : (⟨S100000x8, .f32⟩ : BufTy).Contents (Elt F) :=
  node1 (edge1 (look1 e h) w W b) e h W b

/-! ## Block 2: 8 → 16 features -/

def edge2 (g : (⟨S3200000x8, .f32⟩ : BufTy).Contents (Elt F)) (w : (⟨S3200000, .f32⟩ : BufTy).Contents (Elt F)) (W : (⟨S16x8, .f32⟩ : BufTy).Contents (Elt F)) (b : (⟨S16, .f32⟩ : BufTy).Contents (Elt F)) : (⟨S3200000x16, .f32⟩ : BufTy).Contents (Elt F) :=
  lrelu S3200000x16 bcast_S_S3200000x16
    (addf (Host.dotGeneral dot_S3200000x8_S8x16_S3200000x16_1_0_0_1_n_n none
        (mulf g (broadcastInDim S3200000x8 ![0, 1] bcast_S3200000x1_S3200000x8_0_1
          (broadcastInDim S3200000x1 ![0] bcast_S3200000_S3200000x1_0 w)))
        (transpose S8x16 [1, 0] W transposes_S16x8_S8x16_1_0))
      (broadcastInDim S3200000x16 ![0, 1] bcast_S1x16_S3200000x16_0_1 (broadcastInDim S1x16 ![1] bcast_S16_S1x16_1 b)))

def node2 (msg : (⟨S3200000x16, .f32⟩ : BufTy).Contents (Elt F)) (e : (⟨S2x3200000, .i32⟩ : BufTy).Contents (Elt F)) (h : (⟨S100000x8, .f32⟩ : BufTy).Contents (Elt F)) (W : (⟨S16x8, .f32⟩ : BufTy).Contents (Elt F)) (b : (⟨S16, .f32⟩ : BufTy).Contents (Elt F)) : (⟨S100000x16, .f32⟩ : BufTy).Contents (Elt F) :=
  addf
    (mulf (Host.scatterAdd scatter_S100000x16_S3200000x1_S3200000x16_1_0_0_1
        (broadcastInDim S100000x16 ![] bcast_S_S100000x16 (constant S_ .f32 0x00000000#32)) (targetCol e) msg)
      (broadcastInDim S100000x16 ![0, 1] bcast_S100000x1_S100000x16_0_1 (invCnt (F := F) e)))
    (lrelu S100000x16 bcast_S_S100000x16
      (addf (Host.dotGeneral dot_S100000x8_S8x16_S100000x16_1_0_0_1_n_n none h (transpose S8x16 [1, 0] W transposes_S16x8_S8x16_1_0))
        (broadcastInDim S100000x16 ![0, 1] bcast_S1x16_S100000x16_0_1 (broadcastInDim S1x16 ![1] bcast_S16_S1x16_1 b))))

def look2 (e : (⟨S2x3200000, .i32⟩ : BufTy).Contents (Elt F)) (h : (⟨S100000x8, .f32⟩ : BufTy).Contents (Elt F)) : (⟨S3200000x8, .f32⟩ : BufTy).Contents (Elt F) :=
  Host.gather gather_S100000x8_S3200000x1_S3200000x8_1_0_n_n_0_1_18 h (sourceCol e)

def block2 (e : (⟨S2x3200000, .i32⟩ : BufTy).Contents (Elt F)) (w : (⟨S3200000, .f32⟩ : BufTy).Contents (Elt F)) (h : (⟨S100000x8, .f32⟩ : BufTy).Contents (Elt F)) (W : (⟨S16x8, .f32⟩ : BufTy).Contents (Elt F)) (b : (⟨S16, .f32⟩ : BufTy).Contents (Elt F)) : (⟨S100000x16, .f32⟩ : BufTy).Contents (Elt F) :=
  node2 (edge2 (look2 e h) w W b) e h W b

/-! ## Block 3: 16 → 32 features -/

def edge3 (g : (⟨S3200000x16, .f32⟩ : BufTy).Contents (Elt F)) (w : (⟨S3200000, .f32⟩ : BufTy).Contents (Elt F)) (W : (⟨S32x16, .f32⟩ : BufTy).Contents (Elt F)) (b : (⟨S32, .f32⟩ : BufTy).Contents (Elt F)) : (⟨S3200000x32, .f32⟩ : BufTy).Contents (Elt F) :=
  lrelu S3200000x32 bcast_S_S3200000x32
    (addf (Host.dotGeneral dot_S3200000x16_S16x32_S3200000x32_1_0_0_1_n_n none
        (mulf g (broadcastInDim S3200000x16 ![0, 1] bcast_S3200000x1_S3200000x16_0_1
          (broadcastInDim S3200000x1 ![0] bcast_S3200000_S3200000x1_0 w)))
        (transpose S16x32 [1, 0] W transposes_S32x16_S16x32_1_0))
      (broadcastInDim S3200000x32 ![0, 1] bcast_S1x32_S3200000x32_0_1 (broadcastInDim S1x32 ![1] bcast_S32_S1x32_1 b)))

def node3 (msg : (⟨S3200000x32, .f32⟩ : BufTy).Contents (Elt F)) (e : (⟨S2x3200000, .i32⟩ : BufTy).Contents (Elt F)) (h : (⟨S100000x16, .f32⟩ : BufTy).Contents (Elt F)) (W : (⟨S32x16, .f32⟩ : BufTy).Contents (Elt F)) (b : (⟨S32, .f32⟩ : BufTy).Contents (Elt F)) : (⟨S100000x32, .f32⟩ : BufTy).Contents (Elt F) :=
  addf
    (mulf (Host.scatterAdd scatter_S100000x32_S3200000x1_S3200000x32_1_0_0_1
        (broadcastInDim S100000x32 ![] bcast_S_S100000x32 (constant S_ .f32 0x00000000#32)) (targetCol e) msg)
      (broadcastInDim S100000x32 ![0, 1] bcast_S100000x1_S100000x32_0_1 (invCnt (F := F) e)))
    (lrelu S100000x32 bcast_S_S100000x32
      (addf (Host.dotGeneral dot_S100000x16_S16x32_S100000x32_1_0_0_1_n_n none h (transpose S16x32 [1, 0] W transposes_S32x16_S16x32_1_0))
        (broadcastInDim S100000x32 ![0, 1] bcast_S1x32_S100000x32_0_1 (broadcastInDim S1x32 ![1] bcast_S32_S1x32_1 b))))

def look3 (e : (⟨S2x3200000, .i32⟩ : BufTy).Contents (Elt F)) (h : (⟨S100000x16, .f32⟩ : BufTy).Contents (Elt F)) : (⟨S3200000x16, .f32⟩ : BufTy).Contents (Elt F) :=
  Host.gather gather_S100000x16_S3200000x1_S3200000x16_1_0_n_n_0_1_116 h (sourceCol e)

def block3 (e : (⟨S2x3200000, .i32⟩ : BufTy).Contents (Elt F)) (w : (⟨S3200000, .f32⟩ : BufTy).Contents (Elt F)) (h : (⟨S100000x16, .f32⟩ : BufTy).Contents (Elt F)) (W : (⟨S32x16, .f32⟩ : BufTy).Contents (Elt F)) (b : (⟨S32, .f32⟩ : BufTy).Contents (Elt F)) : (⟨S100000x32, .f32⟩ : BufTy).Contents (Elt F) :=
  node3 (edge3 (look3 e h) w W b) e h W b

/-! ## The head: mean over the nodes, two logits, log-softmax -/

/-- `x - max x` along the one row. -/
def shifted (x : (⟨S1x2, .f32⟩ : BufTy).Contents (Elt F)) : (⟨S1x2, .f32⟩ : BufTy).Contents (Elt F) :=
  subf x (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf x (constant S_ .f32 0xFF800000#32) reducesTo_S1x2_S1_d1 h_S_))))

def logSoftmax (x : (⟨S1x2, .f32⟩ : BufTy).Contents (Elt F)) : (⟨S1x2, .f32⟩ : BufTy).Contents (Elt F) :=
  subf (shifted x) (broadcastInDim S1x2 ![0, 1] bcast_S1x1_S1x2_0_1 (Host.log (broadcastInDim S1x1 ![0] bcast_S1_S1x1_0
    (Host.reduceAdd (Host.exp (shifted x)) (constant S_ .f32 0x00000000#32) reducesTo_S1x2_S1_d1 h_S_))))

def head (h : (⟨S100000x32, .f32⟩ : BufTy).Contents (Elt F)) (W : (⟨S2x32, .f32⟩ : BufTy).Contents (Elt F)) (b : (⟨S2, .f32⟩ : BufTy).Contents (Elt F)) : (⟨S1x2, .f32⟩ : BufTy).Contents (Elt F) :=
  logSoftmax (addf
    (Host.dotGeneral dot_S1x32_S32x2_S1x2_1_0_0_1_n_n none
      (Host.divf (broadcastInDim S1x32 ![1] bcast_S32_S1x32_1 (Host.reduceAdd h (constant S_ .f32 0x00000000#32) reducesTo_S100000x32_S32_d0 h_S_))
        (broadcastInDim S1x32 ![] bcast_S_S1x32 (constant S_ .f32 0x47C35000#32)))
      (transpose S32x2 [1, 0] W transposes_S2x32_S32x2_1_0))
    (broadcastInDim S1x2 ![1] bcast_S2_S1x2_1 b))

/-- The whole function of the eleven argument arrays. -/
def out (x : (⟨S100000x4, .f32⟩ : BufTy).Contents (Elt F)) (e : (⟨S2x3200000, .i32⟩ : BufTy).Contents (Elt F)) (w : (⟨S3200000, .f32⟩ : BufTy).Contents (Elt F)) (W1 : (⟨S8x4, .f32⟩ : BufTy).Contents (Elt F)) (b1 : (⟨S8, .f32⟩ : BufTy).Contents (Elt F)) (W3 : (⟨S16x8, .f32⟩ : BufTy).Contents (Elt F)) (b3 : (⟨S16, .f32⟩ : BufTy).Contents (Elt F))
    (W5 : (⟨S32x16, .f32⟩ : BufTy).Contents (Elt F)) (b5 : (⟨S32, .f32⟩ : BufTy).Contents (Elt F)) (W7 : (⟨S2x32, .f32⟩ : BufTy).Contents (Elt F)) (b7 : (⟨S2, .f32⟩ : BufTy).Contents (Elt F)) : (⟨S1x2, .f32⟩ : BufTy).Contents (Elt F) :=
  head (block3 e w (block2 e w (block1 e w x W1 b1) W3 b3) W5 b5) W7 b7

end Cert.ReferenceIdeal.Spec

end
-- ==== Proof.KHostA.lean ====
/-
  The buffers region 0 is entered with, read back from the launch memory through the first host stretches, for any float
  values: the edges' targets and sources, the reciprocal counts, the rows of `x` at the edges' sources, the weights as a
  column, the first block's matrix transposed and its bias as a row; the arguments still as launched.
-/
import proofs.«158551_j56478819942817_2_alg».proof.Proof.Gen.KernelIdeal.Frame
import proofs.«158551_j56478819942817_2_alg».proof.Proof.Gen.ReferenceIdeal
import proofs.«158551_j56478819942817_2_alg».proof.Proof.Spec

import Idealize.ShloMosaic.Lib.StableHlo.Run

set_option maxRecDepth 16384

noncomputable section

namespace Cert.KernelIdeal.KHostA

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem targets_eq : W3 m ρ c (Proc.devRef .tc main_v1) = Cert.ReferenceIdeal.Spec.targets (F := F) (m ((c.tc : Thread nD τ).loc main_arg1)) := by
  simp only [W3, W2, W1, hostOps0, hostOps0_1, hostOps0_2]
  after_results_simp
  try rfl

theorem sources_eq : W3 m ρ c (Proc.devRef .tc main_v3) = Cert.ReferenceIdeal.Spec.sources (F := F) (m ((c.tc : Thread nD τ).loc main_arg1)) := by
  simp only [W3, W2, W1, hostOps0, hostOps0_1, hostOps0_2]
  after_results_simp
  try rfl

theorem invCnt_eq : W3 m ρ c (Proc.devRef .tc main_v16) = Cert.ReferenceIdeal.Spec.invCnt (F := F) (m ((c.tc : Thread nD τ).loc main_arg1)) := by
  simp only [W3, W2, W1, hostOps0, hostOps0_1, hostOps0_2]
  after_results_simp
  try rfl

theorem look1_eq : W3 m ρ c (Proc.devRef .tc main_v23) = Cert.ReferenceIdeal.Spec.look1 (F := F) (m ((c.tc : Thread nD τ).loc main_arg1)) (m ((c.tc : Thread nD τ).loc main_arg0)) := by
  simp only [W3, W2, W1, hostOps0, hostOps0_1, hostOps0_2]
  after_results_simp
  try rfl

theorem weightCol_eq : W3 m ρ c (Proc.devRef .tc main_v4)
    = shapeCast S3200000x1 (m ((c.tc : Thread nD τ).loc main_arg2)) Cert.KernelIdeal.Gen.shapeCasts_S3200000_S3200000x1 := by
  simp only [W3, W2, W1, hostOps0, hostOps0_1, hostOps0_2]
  after_results_simp
  try rfl

theorem matT1_eq : W3 m ρ c (Proc.devRef .tc main_v24)
    = transpose Cert.ReferenceIdeal.S4x8 [1, 0] (m ((c.tc : Thread nD τ).loc main_arg3)) Cert.ReferenceIdeal.Gen.transposes_S8x4_S4x8_1_0 := by
  simp only [W3, W2, W1, hostOps0, hostOps0_1, hostOps0_2]
  after_results_simp
  try rfl

theorem biasRow1_eq : W3 m ρ c (Proc.devRef .tc main_v25)
    = shapeCast S1x8 (m ((c.tc : Thread nD τ).loc main_arg4)) Cert.KernelIdeal.Gen.shapeCasts_S8_S1x8 := by
  simp only [W3, W2, W1, hostOps0, hostOps0_1, hostOps0_2]
  after_results_simp
  try rfl

theorem arg0_eq : W3 m ρ c (Proc.devRef .tc main_arg0) = (m ((c.tc : Thread nD τ).loc main_arg0)) := by
  simp only [W3, W2, W1, hostOps0, hostOps0_1, hostOps0_2]
  after_results_simp
  try rfl

theorem arg4_eq : W3 m ρ c (Proc.devRef .tc main_arg4) = (m ((c.tc : Thread nD τ).loc main_arg4)) := by
  simp only [W3, W2, W1, hostOps0, hostOps0_1, hostOps0_2]
  after_results_simp
  try rfl

theorem arg5_eq : W3 m ρ c (Proc.devRef .tc main_arg5) = (m ((c.tc : Thread nD τ).loc main_arg5)) := by
  simp only [W3, W2, W1, hostOps0, hostOps0_1, hostOps0_2]
  after_results_simp
  try rfl

theorem arg6_eq : W3 m ρ c (Proc.devRef .tc main_arg6) = (m ((c.tc : Thread nD τ).loc main_arg6)) := by
  simp only [W3, W2, W1, hostOps0, hostOps0_1, hostOps0_2]
  after_results_simp
  try rfl

theorem arg7_eq : W3 m ρ c (Proc.devRef .tc main_arg7) = (m ((c.tc : Thread nD τ).loc main_arg7)) := by
  simp only [W3, W2, W1, hostOps0, hostOps0_1, hostOps0_2]
  after_results_simp
  try rfl

theorem arg8_eq : W3 m ρ c (Proc.devRef .tc main_arg8) = (m ((c.tc : Thread nD τ).loc main_arg8)) := by
  simp only [W3, W2, W1, hostOps0, hostOps0_1, hostOps0_2]
  after_results_simp
  try rfl

theorem arg9_eq : W3 m ρ c (Proc.devRef .tc main_arg9) = (m ((c.tc : Thread nD τ).loc main_arg9)) := by
  simp only [W3, W2, W1, hostOps0, hostOps0_1, hostOps0_2]
  after_results_simp
  try rfl

theorem arg10_eq : W3 m ρ c (Proc.devRef .tc main_arg10) = (m ((c.tc : Thread nD τ).loc main_arg10)) := by
  simp only [W3, W2, W1, hostOps0, hostOps0_1, hostOps0_2]
  after_results_simp
  try rfl

end Cert.KernelIdeal.KHostA

end
-- ==== Proof.KHostB.lean ====
/-
  The buffers region 1 is entered with, for any float values, region 0's output array an unknown: the node features after
  block 1 are the Spec's node stage of that array; the rows looked up for block 2 are rows of those features; the second
  block's matrix transposed and its bias as a row; targets, sources, reciprocal counts, the weight column and the
  remaining arguments as before the region.
-/
import proofs.«158551_j56478819942817_2_alg».proof.Proof.Gen.KernelIdeal.Frame
import proofs.«158551_j56478819942817_2_alg».proof.Proof.Gen.ReferenceIdeal
import proofs.«158551_j56478819942817_2_alg».proof.Proof.Spec
import proofs.«158551_j56478819942817_2_alg».proof.Proof.KHostA
import Idealize.ShloMosaic.Lib.StableHlo.Run

set_option maxRecDepth 16384

noncomputable section

namespace Cert.KernelIdeal.KHostB

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- An input window's array is never written back: it leaves region 0 as it entered. -/
theorem in0 (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))

/-- The node features after block 1: the node stage of whatever region 0 left in its output. -/
theorem h1_eq : W7 m ρ c (Proc.devRef .tc main_v37)
    = Cert.ReferenceIdeal.Spec.node1 (F := F) (W4 m ρ c (Proc.devRef .tc main_v26)) (m ((c.tc : Thread nD τ).loc main_arg1)) (m ((c.tc : Thread nD τ).loc main_arg0)) (m ((c.tc : Thread nD τ).loc main_arg3)) (m ((c.tc : Thread nD τ).loc main_arg4)) := by
  simp only [W7, W6, W5, hostOps1, hostOps1_1, hostOps1_2]
  after_results_simp
  rw [W4_of_ne m ρ c main_v1 (by decide), W4_of_ne m ρ c main_v16 (by decide), W4_of_ne m ρ c main_arg0 (by decide), (in0 m ρ c 2 rfl : W4 m ρ c (Proc.devRef .tc main_v24) = W3 m ρ c (Proc.devRef .tc main_v24)), W4_of_ne m ρ c main_arg4 (by decide), KHostA.targets_eq, KHostA.invCnt_eq, KHostA.arg0_eq, KHostA.matT1_eq, KHostA.arg4_eq]
  rfl

/-- The rows looked up for block 2 are rows of the features after block 1. -/
theorem look2_eq : W7 m ρ c (Proc.devRef .tc main_v44)
    = Cert.ReferenceIdeal.Spec.look2 (F := F) (m ((c.tc : Thread nD τ).loc main_arg1)) (W7 m ρ c (Proc.devRef .tc main_v37)) := by
  simp only [W7, W6, W5, hostOps1, hostOps1_1, hostOps1_2]
  after_results_simp
  rw [W4_of_ne m ρ c main_v3 (by decide), KHostA.sources_eq]
  rfl

theorem matT2_eq : W7 m ρ c (Proc.devRef .tc main_v45)
    = transpose Cert.ReferenceIdeal.S8x16 [1, 0] (m ((c.tc : Thread nD τ).loc main_arg5)) Cert.ReferenceIdeal.Gen.transposes_S16x8_S8x16_1_0 := by
  simp only [W7, W6, W5, hostOps1, hostOps1_1, hostOps1_2]
  after_results_simp
  rw [W4_of_ne m ρ c main_arg5 (by decide), KHostA.arg5_eq]
  try rfl

theorem biasRow2_eq : W7 m ρ c (Proc.devRef .tc main_v46)
    = shapeCast S1x16 (m ((c.tc : Thread nD τ).loc main_arg6)) Cert.KernelIdeal.Gen.shapeCasts_S16_S1x16 := by
  simp only [W7, W6, W5, hostOps1, hostOps1_1, hostOps1_2]
  after_results_simp
  rw [W4_of_ne m ρ c main_arg6 (by decide), KHostA.arg6_eq]
  try rfl

theorem targets_eq : W7 m ρ c (Proc.devRef .tc main_v1) = Cert.ReferenceIdeal.Spec.targets (F := F) (m ((c.tc : Thread nD τ).loc main_arg1)) := by
  simp only [W7, W6, W5, hostOps1, hostOps1_1, hostOps1_2]
  after_results_simp
  rw [W4_of_ne m ρ c main_v1 (by decide), KHostA.targets_eq]

theorem sources_eq : W7 m ρ c (Proc.devRef .tc main_v3) = Cert.ReferenceIdeal.Spec.sources (F := F) (m ((c.tc : Thread nD τ).loc main_arg1)) := by
  simp only [W7, W6, W5, hostOps1, hostOps1_1, hostOps1_2]
  after_results_simp
  rw [W4_of_ne m ρ c main_v3 (by decide), KHostA.sources_eq]

theorem invCnt_eq : W7 m ρ c (Proc.devRef .tc main_v16) = Cert.ReferenceIdeal.Spec.invCnt (F := F) (m ((c.tc : Thread nD τ).loc main_arg1)) := by
  simp only [W7, W6, W5, hostOps1, hostOps1_1, hostOps1_2]
  after_results_simp
  rw [W4_of_ne m ρ c main_v16 (by decide), KHostA.invCnt_eq]

theorem weightCol_eq : W7 m ρ c (Proc.devRef .tc main_v4)
    = shapeCast S3200000x1 (m ((c.tc : Thread nD τ).loc main_arg2)) Cert.KernelIdeal.Gen.shapeCasts_S3200000_S3200000x1 := by
  simp only [W7, W6, W5, hostOps1, hostOps1_1, hostOps1_2]
  after_results_simp
  rw [(in0 m ρ c 1 rfl : W4 m ρ c (Proc.devRef .tc main_v4) = W3 m ρ c (Proc.devRef .tc main_v4)), KHostA.weightCol_eq]

theorem arg6_eq : W7 m ρ c (Proc.devRef .tc main_arg6) = (m ((c.tc : Thread nD τ).loc main_arg6)) := by
  simp only [W7, W6, W5, hostOps1, hostOps1_1, hostOps1_2]
  after_results_simp
  rw [W4_of_ne m ρ c main_arg6 (by decide), KHostA.arg6_eq]

theorem arg7_eq : W7 m ρ c (Proc.devRef .tc main_arg7) = (m ((c.tc : Thread nD τ).loc main_arg7)) := by
  simp only [W7, W6, W5, hostOps1, hostOps1_1, hostOps1_2]
  after_results_simp
  rw [W4_of_ne m ρ c main_arg7 (by decide), KHostA.arg7_eq]

theorem arg8_eq : W7 m ρ c (Proc.devRef .tc main_arg8) = (m ((c.tc : Thread nD τ).loc main_arg8)) := by
  simp only [W7, W6, W5, hostOps1, hostOps1_1, hostOps1_2]
  after_results_simp
  rw [W4_of_ne m ρ c main_arg8 (by decide), KHostA.arg8_eq]

theorem arg9_eq : W7 m ρ c (Proc.devRef .tc main_arg9) = (m ((c.tc : Thread nD τ).loc main_arg9)) := by
  simp only [W7, W6, W5, hostOps1, hostOps1_1, hostOps1_2]
  after_results_simp
  rw [W4_of_ne m ρ c main_arg9 (by decide), KHostA.arg9_eq]

theorem arg10_eq : W7 m ρ c (Proc.devRef .tc main_arg10) = (m ((c.tc : Thread nD τ).loc main_arg10)) := by
  simp only [W7, W6, W5, hostOps1, hostOps1_1, hostOps1_2]
  after_results_simp
  rw [W4_of_ne m ρ c main_arg10 (by decide), KHostA.arg10_eq]

end Cert.KernelIdeal.KHostB

end
-- ==== Proof.KHostC.lean ====
/-
  The buffers region 2 is entered with, for any float values, region 1's output array an unknown: the node features after
  block 2 are the Spec's node stage of that array over the features after block 1; the rows looked up for block 3 are rows
  of those features; the third block's matrix transposed and its bias as a row; targets, reciprocal counts, the weight
  column and the remaining arguments as before the region.
-/
import proofs.«158551_j56478819942817_2_alg».proof.Proof.Gen.KernelIdeal.Frame
import proofs.«158551_j56478819942817_2_alg».proof.Proof.Gen.ReferenceIdeal
import proofs.«158551_j56478819942817_2_alg».proof.Proof.Spec
import proofs.«158551_j56478819942817_2_alg».proof.Proof.KHostB
import Idealize.ShloMosaic.Lib.StableHlo.Run

set_option maxRecDepth 16384

noncomputable section

namespace Cert.KernelIdeal.KHostC

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- An input window's array is never written back: it leaves region 1 as it entered. -/
theorem in1 (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))

/-- The node features after block 2: the node stage of whatever region 1 left in its output. -/
theorem h2_eq : W11 m ρ c (Proc.devRef .tc main_v58)
    = Cert.ReferenceIdeal.Spec.node2 (F := F) (W8 m ρ c (Proc.devRef .tc main_v47)) (m ((c.tc : Thread nD τ).loc main_arg1)) (W7 m ρ c (Proc.devRef .tc main_v37)) (m ((c.tc : Thread nD τ).loc main_arg5)) (m ((c.tc : Thread nD τ).loc main_arg6)) := by
  generalize hH : W7 m ρ c (Proc.devRef .tc main_v37) = H
  simp only [W11, W10, W9, hostOps2, hostOps2_1, hostOps2_2]
  after_results_simp
  rw [W8_of_ne m ρ c main_v1 (by decide), W8_of_ne m ρ c main_v16 (by decide), W8_of_ne m ρ c main_v37 (by decide), hH, (in1 m ρ c 2 rfl : W8 m ρ c (Proc.devRef .tc main_v45) = W7 m ρ c (Proc.devRef .tc main_v45)), W8_of_ne m ρ c main_arg6 (by decide), KHostB.targets_eq, KHostB.invCnt_eq, KHostB.matT2_eq, KHostB.arg6_eq]
  rfl

/-- The rows looked up for block 3 are rows of the features after block 2. -/
theorem look3_eq : W11 m ρ c (Proc.devRef .tc main_v65)
    = Cert.ReferenceIdeal.Spec.look3 (F := F) (m ((c.tc : Thread nD τ).loc main_arg1)) (W11 m ρ c (Proc.devRef .tc main_v58)) := by
  simp only [W11, W10, W9, hostOps2, hostOps2_1, hostOps2_2]
  after_results_simp
  rw [W8_of_ne m ρ c main_v3 (by decide), KHostB.sources_eq]
  rfl

theorem matT3_eq : W11 m ρ c (Proc.devRef .tc main_v66)
    = transpose Cert.ReferenceIdeal.S16x32 [1, 0] (m ((c.tc : Thread nD τ).loc main_arg7)) Cert.ReferenceIdeal.Gen.transposes_S32x16_S16x32_1_0 := by
  simp only [W11, W10, W9, hostOps2, hostOps2_1, hostOps2_2]
  after_results_simp
  rw [W8_of_ne m ρ c main_arg7 (by decide), KHostB.arg7_eq]
  try rfl

theorem biasRow3_eq : W11 m ρ c (Proc.devRef .tc main_v67)
    = shapeCast S1x32 (m ((c.tc : Thread nD τ).loc main_arg8)) Cert.KernelIdeal.Gen.shapeCasts_S32_S1x32 := by
  simp only [W11, W10, W9, hostOps2, hostOps2_1, hostOps2_2]
  after_results_simp
  rw [W8_of_ne m ρ c main_arg8 (by decide), KHostB.arg8_eq]
  try rfl

theorem targets_eq : W11 m ρ c (Proc.devRef .tc main_v1) = Cert.ReferenceIdeal.Spec.targets (F := F) (m ((c.tc : Thread nD τ).loc main_arg1)) := by
  simp only [W11, W10, W9, hostOps2, hostOps2_1, hostOps2_2]
  after_results_simp
  rw [W8_of_ne m ρ c main_v1 (by decide), KHostB.targets_eq]

theorem invCnt_eq : W11 m ρ c (Proc.devRef .tc main_v16) = Cert.ReferenceIdeal.Spec.invCnt (F := F) (m ((c.tc : Thread nD τ).loc main_arg1)) := by
  simp only [W11, W10, W9, hostOps2, hostOps2_1, hostOps2_2]
  after_results_simp
  rw [W8_of_ne m ρ c main_v16 (by decide), KHostB.invCnt_eq]

theorem weightCol_eq : W11 m ρ c (Proc.devRef .tc main_v4)
    = shapeCast S3200000x1 (m ((c.tc : Thread nD τ).loc main_arg2)) Cert.KernelIdeal.Gen.shapeCasts_S3200000_S3200000x1 := by
  simp only [W11, W10, W9, hostOps2, hostOps2_1, hostOps2_2]
  after_results_simp
  rw [(in1 m ρ c 1 rfl : W8 m ρ c (Proc.devRef .tc main_v4) = W7 m ρ c (Proc.devRef .tc main_v4)), KHostB.weightCol_eq]

theorem arg8_eq : W11 m ρ c (Proc.devRef .tc main_arg8) = (m ((c.tc : Thread nD τ).loc main_arg8)) := by
  simp only [W11, W10, W9, hostOps2, hostOps2_1, hostOps2_2]
  after_results_simp
  rw [W8_of_ne m ρ c main_arg8 (by decide), KHostB.arg8_eq]

theorem arg9_eq : W11 m ρ c (Proc.devRef .tc main_arg9) = (m ((c.tc : Thread nD τ).loc main_arg9)) := by
  simp only [W11, W10, W9, hostOps2, hostOps2_1, hostOps2_2]
  after_results_simp
  rw [W8_of_ne m ρ c main_arg9 (by decide), KHostB.arg9_eq]

theorem arg10_eq : W11 m ρ c (Proc.devRef .tc main_arg10) = (m ((c.tc : Thread nD τ).loc main_arg10)) := by
  simp only [W11, W10, W9, hostOps2, hostOps2_1, hostOps2_2]
  after_results_simp
  rw [W8_of_ne m ρ c main_arg10 (by decide), KHostB.arg10_eq]

end Cert.KernelIdeal.KHostC

end
-- ==== Proof.KHostD.lean ====
/-
  The result buffer, for any float values, region 2's output array an unknown: the head (mean over the nodes, two logits,
  log-softmax) of the Spec's node stage of that array over the features after block 2.
-/
import proofs.«158551_j56478819942817_2_alg».proof.Proof.Gen.KernelIdeal.Frame
import proofs.«158551_j56478819942817_2_alg».proof.Proof.Gen.ReferenceIdeal
import proofs.«158551_j56478819942817_2_alg».proof.Proof.Spec
import proofs.«158551_j56478819942817_2_alg».proof.Proof.KHostC
import Idealize.ShloMosaic.Lib.StableHlo.Run

set_option maxRecDepth 16384

noncomputable section

namespace Cert.KernelIdeal.KHostD

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- An input window's array is never written back: it leaves region 2 as it entered. -/
theorem in2 (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))

theorem out_eq : W16 m ρ c (Proc.devRef .tc main_v88)
    = Cert.ReferenceIdeal.Spec.head (F := F) (Cert.ReferenceIdeal.Spec.node3 (F := F) (W12 m ρ c (Proc.devRef .tc main_v68)) (m ((c.tc : Thread nD τ).loc main_arg1)) (W11 m ρ c (Proc.devRef .tc main_v58)) (m ((c.tc : Thread nD τ).loc main_arg7)) (m ((c.tc : Thread nD τ).loc main_arg8)))
        (m ((c.tc : Thread nD τ).loc main_arg9)) (m ((c.tc : Thread nD τ).loc main_arg10)) := by
  generalize hH : W11 m ρ c (Proc.devRef .tc main_v58) = H
  simp only [W16, W15, W14, W13, hostOps3, hostOps3_1, hostOps3_2, hostOps3_3]
  after_results_simp
  rw [W12_of_ne m ρ c main_v1 (by decide), W12_of_ne m ρ c main_v16 (by decide), W12_of_ne m ρ c main_v58 (by decide), hH, (in2 m ρ c 2 rfl : W12 m ρ c (Proc.devRef .tc main_v66) = W11 m ρ c (Proc.devRef .tc main_v66)), W12_of_ne m ρ c main_arg8 (by decide), W12_of_ne m ρ c main_arg9 (by decide), W12_of_ne m ρ c main_arg10 (by decide), KHostC.targets_eq, KHostC.invCnt_eq, KHostC.matT3_eq, KHostC.arg8_eq, KHostC.arg9_eq, KHostC.arg10_eq]
  rfl

end Cert.KernelIdeal.KHostD

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«158551_j56478819942817_2_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.EdgeDefs.lean ====
import Idealize.ShloMosaic.PureOps.Ideal
import Idealize.ShloMosaic.Lib.ValueIdx

/-!
# The per-edge stage as a function of extended reals

The slope function of the per-edge stage, as one scalar function on the extended reals, and the stage itself entry by
entry: for looked-up rows `g : [E, K]`, a column of edge weights `w2 : [E, 1]`, a matrix `Wt : [K, M]` and a bias row
`b2 : [1, M]`, entry `(e, c)` is the slope function of `(Σ_k (g(e, k) · w2(e, 0)) · Wt(k, c)) + b2(0, c)`.
-/

noncomputable section

open scoped BigOperators

namespace Cert.EdgeMath

open Idealize.ShloMosaic Idealize.ShloMosaic.ValueIdx

/-- `y` where `y ≥ 0`, `0x3C23D70A · y` elsewhere: what a select between `y` and the product of the splat
    `0x3C23D70A` with `y`, on the comparison `y ≥ 0` against the zero splat, reads at an index over the extended reals.
    The two literals stay the extended reals their words encode. -/
def lreluS (y : EReal) : EReal :=
  Scalar.select (FloatOps.cmpf (F := Ideal) (φ := .f32) .oge y (Ideal.ofBits .f32 0x00000000#32)) y
    (Ideal.ofBits .f32 0x3C23D70A#32 * y)

/-- The per-edge stage pointwise: entry `(e, c)` is `lreluS ((Σ_k (g(e, k) · w2(e, 0)) · Wt(k, c)) + b2(0, c))`. -/
def edgeVal {E K M : Nat} (g : (⟨2, ![E, K]⟩ : Shape).Idx → EReal) (w2 : (⟨2, ![E, 1]⟩ : Shape).Idx → EReal)
    (Wt : (⟨2, ![K, M]⟩ : Shape).Idx → EReal) (b2 : (⟨2, ![1, M]⟩ : Shape).Idx → EReal) :
    (⟨2, ![E, M]⟩ : Shape).Idx → EReal :=
  fun i => lreluS ((∑ k : Fin K, (g (ix2 (n0 := E) (n1 := K) (i 0) k) * w2 (ix2 (n0 := E) (n1 := 1) (i 0) 0))
      * Wt (ix2 (n0 := K) (n1 := M) k (i 1))) + b2 (ix2 (n0 := 1) (n1 := M) 0 (i 1)))

/-- The stage at an index given by its coordinates. -/
theorem edgeVal_apply {E K M : Nat} (g : (⟨2, ![E, K]⟩ : Shape).Idx → EReal) (w2 : (⟨2, ![E, 1]⟩ : Shape).Idx → EReal)
    (Wt : (⟨2, ![K, M]⟩ : Shape).Idx → EReal) (b2 : (⟨2, ![1, M]⟩ : Shape).Idx → EReal) (e : Fin E) (c : Fin M) :
    edgeVal g w2 Wt b2 (ix2 e c)
      = lreluS ((∑ k : Fin K, (g (ix2 e k) * w2 (ix2 e (0 : Fin 1))) * Wt (ix2 k c)) + b2 (ix2 (0 : Fin 1) c)) := rfl

end Cert.EdgeMath

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.EdgeMath.lean ====
import proofs.«158551_j56478819942817_2_alg».proof.Proof.Spec
import proofs.«158551_j56478819942817_2_alg».proof.Proof.Gen.KernelIdeal.Skeleton
import proofs.«158551_j56478819942817_2_alg».proof.Proof.LibMatmulRows
import proofs.«158551_j56478819942817_2_alg».proof.Proof.EdgeDefs
import proofs.«158551_j56478819942817_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The per-edge stage of both programs is `edgeVal`

Both programs compute, for every edge `e` and output feature `c`,
`lreluS ((Σ_k (g(e, k) · w(e)) · Wt(k, c)) + b(c))`: the looked-up row scaled by the edge's weight, times the
transposed weight matrix, plus the bias, through the slope function. They differ only in layout operations:
* the kernel body broadcasts the weight column `[E, 1]` across the `K` features and the bias row `[1, M]` across the
  `E` edges, passes both product operands through a format change that is the identity on extended reals, and
  contracts with a matrix product into a zero accumulator;
* the reference lifts the flat weights `[E]` to a column and then across the features, the flat bias `[M]` to a row
  and then across the edges, and contracts with the host's product.
Read at an index `(e, c)`, each layout operation is its operand at one index, each product is the sum over `k` of
row entry times column entry, and the two comparisons, selects and scalings are the slope function by definition.
Each side is proved once over arbitrary extents `E K M` and then stated at the three blocks' sizes.
-/

noncomputable section

open scoped BigOperators

namespace Cert.EdgeMath

open Idealize.ShloMosaic Idealize.ShloMosaic.ValueIdx Cert.LibColumnLayout

open Cert.LibMatmulRows

/-! ## Each side over arbitrary extents -/

/-- The kernel body over any extents: the identity shape casts drop, the select on `y ≥ 0` between `y` and the scaled
    `y` is `lreluS y` at each index, the product into the zero accumulator is the sum over `k`, and the two broadcasts
    read the weight column at row `e` and the bias row at column `c`. -/
theorem payGen {E K M : Nat}
    (wf : DotDims.WF ⟨2, ![E, K]⟩ ⟨2, ![K, M]⟩ ⟨2, ![E, M]⟩ [1] [0] [0] [1] [] [])
    (hc0 : (⟨2, ![E, K]⟩ : Shape).ShapeCasts ⟨2, ![E, K]⟩) (hc1 : (⟨2, ![E, 1]⟩ : Shape).ShapeCasts ⟨2, ![E, 1]⟩)
    (hb1 : (⟨2, ![E, 1]⟩ : Shape).Broadcasts ⟨2, ![E, K]⟩) (hbits : FTy.bits .bf16 < FTy.bits .f32)
    (hc2 : (⟨2, ![K, M]⟩ : Shape).ShapeCasts ⟨2, ![K, M]⟩) (hc3 : (⟨2, ![1, M]⟩ : Shape).ShapeCasts ⟨2, ![1, M]⟩)
    (hb3 : (⟨2, ![1, M]⟩ : Shape).Broadcasts ⟨2, ![E, M]⟩)
    (x0 : FVec Ideal ⟨2, ![E, K]⟩ .f32) (x1 : FVec Ideal ⟨2, ![E, 1]⟩ .f32) (x2 : FVec Ideal ⟨2, ![K, M]⟩ .f32)
    (x3 : FVec Ideal ⟨2, ![1, M]⟩ .f32) :
    select
        (cmpf .oge
          (addf
            (matmul (dotRows E K M wf) none
              (truncf .bf16 (mulf (shapeCast ⟨2, ![E, K]⟩ x0 hc0) (broadcastTo ⟨2, ![E, K]⟩ (shapeCast ⟨2, ![E, 1]⟩ x1 hc1) hb1)) hbits)
              (truncf .bf16 (shapeCast ⟨2, ![K, M]⟩ x2 hc2) hbits)
              (constant (F := Ideal) ⟨2, ![E, M]⟩ .f32 0x00000000#32))
            (broadcastTo ⟨2, ![E, M]⟩ (shapeCast ⟨2, ![1, M]⟩ x3 hc3) hb3))
          (broadcast ⟨2, ![E, M]⟩ (Scalar.ofBits (F := Ideal) .f32 0x00000000#32)))
        (addf
            (matmul (dotRows E K M wf) none
              (truncf .bf16 (mulf (shapeCast ⟨2, ![E, K]⟩ x0 hc0) (broadcastTo ⟨2, ![E, K]⟩ (shapeCast ⟨2, ![E, 1]⟩ x1 hc1) hb1)) hbits)
              (truncf .bf16 (shapeCast ⟨2, ![K, M]⟩ x2 hc2) hbits)
              (constant (F := Ideal) ⟨2, ![E, M]⟩ .f32 0x00000000#32))
            (broadcastTo ⟨2, ![E, M]⟩ (shapeCast ⟨2, ![1, M]⟩ x3 hc3) hb3))
        (mulf (broadcast ⟨2, ![E, M]⟩ (Scalar.ofBits (F := Ideal) .f32 0x3C23D70A#32))
          (addf
            (matmul (dotRows E K M wf) none
              (truncf .bf16 (mulf (shapeCast ⟨2, ![E, K]⟩ x0 hc0) (broadcastTo ⟨2, ![E, K]⟩ (shapeCast ⟨2, ![E, 1]⟩ x1 hc1) hb1)) hbits)
              (truncf .bf16 (shapeCast ⟨2, ![K, M]⟩ x2 hc2) hbits)
              (constant (F := Ideal) ⟨2, ![E, M]⟩ .f32 0x00000000#32))
            (broadcastTo ⟨2, ![E, M]⟩ (shapeCast ⟨2, ![1, M]⟩ x3 hc3) hb3)))
      = edgeVal x0 x1 x2 x3 := by
  funext i
  obtain ⟨e, c, rfl⟩ : ∃ (e : Fin E) (c : Fin M), i = ix2 e c := ⟨i 0, i 1, eq_ix2 i⟩
  rw [shapeCast_self x0, shapeCast_self x1, shapeCast_self x2, shapeCast_self x3, edgeVal_apply]
  show lreluS (matmul (dotRows E K M wf) none
              (truncf .bf16 (mulf x0 (broadcastTo ⟨2, ![E, K]⟩ x1 hb1)) hbits)
              (truncf .bf16 x2 hbits)
              (constant (F := Ideal) ⟨2, ![E, M]⟩ .f32 0x00000000#32) (ix2 e c) + broadcastTo ⟨2, ![E, M]⟩ x3 hb3 (ix2 e c)) = _
  rw [show matmul (dotRows E K M wf) none
              (truncf .bf16 (mulf x0 (broadcastTo ⟨2, ![E, K]⟩ x1 hb1)) hbits)
              (truncf .bf16 x2 hbits)
              (constant (F := Ideal) ⟨2, ![E, M]⟩ .f32 0x00000000#32) = mmRows _ _ from matmulRows_eq wf none _ _,
    mmRows_apply, broadcastTo_1b_ab_apply]
  refine congrArg (fun t => lreluS (t + x3 (ix2 (0 : Fin 1) c))) (Finset.sum_congr rfl fun k _ => ?_)
  show (x0 (ix2 e k) * broadcastTo ⟨2, ![E, K]⟩ x1 hb1 (ix2 e k)) * x2 (ix2 k c) = _
  rw [broadcastTo_a1_ab_apply]

/-- The reference's stage over any extents: the same slope function at each index, the host's product is the sum over
    `k`, the weights lifted `[E] → [E, 1] → [E, K]` read `w e`, which is the cast column at `(e, 0)`, and the bias lifted
    `[M] → [1, M] → [E, M]` reads `b c`, which is the cast row at `(0, c)`. The right operand is left as it is. -/
theorem refGen {E K M : Nat}
    (wf : DotDims.WF ⟨2, ![E, K]⟩ ⟨2, ![K, M]⟩ ⟨2, ![E, M]⟩ [1] [0] [0] [1] [] [])
    (hbS : (⟨0, ![]⟩ : Shape).BroadcastsInDim ⟨2, ![E, M]⟩ (![] : Fin 0 → Fin 2))
    (hb1 : (⟨1, ![E]⟩ : Shape).BroadcastsInDim ⟨2, ![E, 1]⟩ (![0] : Fin 1 → Fin 2))
    (hb2 : (⟨2, ![E, 1]⟩ : Shape).BroadcastsInDim ⟨2, ![E, K]⟩ (![0, 1] : Fin 2 → Fin 2))
    (hb3 : (⟨1, ![M]⟩ : Shape).BroadcastsInDim ⟨2, ![1, M]⟩ (![1] : Fin 1 → Fin 2))
    (hb4 : (⟨2, ![1, M]⟩ : Shape).BroadcastsInDim ⟨2, ![E, M]⟩ (![0, 1] : Fin 2 → Fin 2))
    (hw : (⟨1, ![E]⟩ : Shape).ShapeCasts ⟨2, ![E, 1]⟩) (hb : (⟨1, ![M]⟩ : Shape).ShapeCasts ⟨2, ![1, M]⟩)
    (g : FVec Ideal ⟨2, ![E, K]⟩ .f32) (w : FVec Ideal ⟨1, ![E]⟩ .f32) (Wt : FVec Ideal ⟨2, ![K, M]⟩ .f32)
    (b : FVec Ideal ⟨1, ![M]⟩ .f32) :
    Cert.ReferenceIdeal.Spec.lrelu (F := Ideal) ⟨2, ![E, M]⟩ hbS
        (addf
          (Host.dotGeneral (dotRows E K M wf) none
            (mulf g (broadcastInDim ⟨2, ![E, K]⟩ ![0, 1] hb2 (broadcastInDim ⟨2, ![E, 1]⟩ ![0] hb1 w))) Wt)
          (broadcastInDim ⟨2, ![E, M]⟩ ![0, 1] hb4 (broadcastInDim ⟨2, ![1, M]⟩ ![1] hb3 b)))
      = edgeVal g (shapeCast ⟨2, ![E, 1]⟩ w hw) Wt (shapeCast ⟨2, ![1, M]⟩ b hb) := by
  funext i
  obtain ⟨e, c, rfl⟩ : ∃ (e : Fin E) (c : Fin M), i = ix2 e c := ⟨i 0, i 1, eq_ix2 i⟩
  rw [edgeVal_apply]
  show lreluS (Host.dotGeneral (dotRows E K M wf) none
            (mulf g (broadcastInDim ⟨2, ![E, K]⟩ ![0, 1] hb2 (broadcastInDim ⟨2, ![E, 1]⟩ ![0] hb1 w))) Wt (ix2 e c)
        + broadcastInDim ⟨2, ![E, M]⟩ ![0, 1] hb4 (broadcastInDim ⟨2, ![1, M]⟩ ![1] hb3 b) (ix2 e c)) = _
  rw [show Host.dotGeneral (dotRows E K M wf) none
            (mulf g (broadcastInDim ⟨2, ![E, K]⟩ ![0, 1] hb2 (broadcastInDim ⟨2, ![E, 1]⟩ ![0] hb1 w))) Wt = mmRows _ _
        from dotGeneralRows_eq wf none .single _ _,
    mmRows_apply, broadcastInDim_1b_ab_apply, broadcastInDim_b_1b_apply, shapeCast_a_1a_apply, shapeCast_a_a1_apply]
  refine congrArg (fun t => lreluS (t + b (ix1 c))) (Finset.sum_congr rfl fun k _ => ?_)
  show (g (ix2 e k) * broadcastInDim ⟨2, ![E, K]⟩ ![0, 1] hb2 (broadcastInDim ⟨2, ![E, 1]⟩ ![0] hb1 w) (ix2 e k)) * Wt (ix2 k c) = _
  rw [broadcastInDim_a1_ab_apply, broadcastInDim_a_a1_apply]

/-! ## The three kernel bodies -/

theorem pay0 (x0 : Vec Ideal Cert.KernelIdeal.S8000x4 .f32) (x1 : Vec Ideal Cert.KernelIdeal.S8000x1 .f32)
    (x2 : Vec Ideal Cert.KernelIdeal.S4x8 .f32) (x3 : Vec Ideal Cert.KernelIdeal.S1x8 .f32) :
    Cert.KernelIdeal.Gen.k0_pay1 (F := Ideal) x0 x1 x2 x3 = edgeVal (E := 8000) (K := 4) (M := 8) x0 x1 x2 x3 :=
  payGen Cert.KernelIdeal.dot_S8000x4_S4x8_S8000x8_1_0_0_1_n_n.wf _ _ _ _ _ _ _ x0 x1 x2 x3

theorem pay1 (x0 : Vec Ideal Cert.KernelIdeal.S8000x8 .f32) (x1 : Vec Ideal Cert.KernelIdeal.S8000x1 .f32)
    (x2 : Vec Ideal Cert.KernelIdeal.S8x16 .f32) (x3 : Vec Ideal Cert.KernelIdeal.S1x16 .f32) :
    Cert.KernelIdeal.Gen.k1_pay1 (F := Ideal) x0 x1 x2 x3 = edgeVal (E := 8000) (K := 8) (M := 16) x0 x1 x2 x3 :=
  payGen Cert.KernelIdeal.dot_S8000x8_S8x16_S8000x16_1_0_0_1_n_n.wf _ _ _ _ _ _ _ x0 x1 x2 x3

theorem pay2 (x0 : Vec Ideal Cert.KernelIdeal.S8000x16 .f32) (x1 : Vec Ideal Cert.KernelIdeal.S8000x1 .f32)
    (x2 : Vec Ideal Cert.KernelIdeal.S16x32 .f32) (x3 : Vec Ideal Cert.KernelIdeal.S1x32 .f32) :
    Cert.KernelIdeal.Gen.k2_pay1 (F := Ideal) x0 x1 x2 x3 = edgeVal (E := 8000) (K := 16) (M := 32) x0 x1 x2 x3 :=
  payGen Cert.KernelIdeal.dot_S8000x16_S16x32_S8000x32_1_0_0_1_n_n.wf _ _ _ _ _ _ _ x0 x1 x2 x3

/-! ## The reference's three per-edge stages -/

theorem ref1 [Cert.ReferenceIdeal.Facts] (g : FVec Ideal Cert.ReferenceIdeal.S3200000x4 .f32)
    (w : FVec Ideal Cert.ReferenceIdeal.S3200000 .f32) (W : FVec Ideal Cert.ReferenceIdeal.S8x4 .f32)
    (b : FVec Ideal Cert.ReferenceIdeal.S8 .f32)
    (hw : Cert.ReferenceIdeal.S3200000.ShapeCasts Cert.ReferenceIdeal.S3200000x1)
    (hb : Cert.ReferenceIdeal.S8.ShapeCasts Cert.ReferenceIdeal.S1x8) :
    Cert.ReferenceIdeal.Spec.edge1 (F := Ideal) g w W b
      = edgeVal (E := 3200000) (K := 4) (M := 8) g (shapeCast Cert.ReferenceIdeal.S3200000x1 w hw)
          (transpose Cert.ReferenceIdeal.S4x8 [1, 0] W Cert.ReferenceIdeal.Facts₀.transposes_S8x4_S4x8_1_0)
          (shapeCast Cert.ReferenceIdeal.S1x8 b hb) :=
  refGen Cert.ReferenceIdeal.dot_S3200000x4_S4x8_S3200000x8_1_0_0_1_n_n.wf _ _ _ _ _ hw hb g w _ b

theorem ref2 [Cert.ReferenceIdeal.Facts] (g : FVec Ideal Cert.ReferenceIdeal.S3200000x8 .f32)
    (w : FVec Ideal Cert.ReferenceIdeal.S3200000 .f32) (W : FVec Ideal Cert.ReferenceIdeal.S16x8 .f32)
    (b : FVec Ideal Cert.ReferenceIdeal.S16 .f32)
    (hw : Cert.ReferenceIdeal.S3200000.ShapeCasts Cert.ReferenceIdeal.S3200000x1)
    (hb : Cert.ReferenceIdeal.S16.ShapeCasts Cert.ReferenceIdeal.S1x16) :
    Cert.ReferenceIdeal.Spec.edge2 (F := Ideal) g w W b
      = edgeVal (E := 3200000) (K := 8) (M := 16) g (shapeCast Cert.ReferenceIdeal.S3200000x1 w hw)
          (transpose Cert.ReferenceIdeal.S8x16 [1, 0] W Cert.ReferenceIdeal.Facts₀.transposes_S16x8_S8x16_1_0)
          (shapeCast Cert.ReferenceIdeal.S1x16 b hb) :=
  refGen Cert.ReferenceIdeal.dot_S3200000x8_S8x16_S3200000x16_1_0_0_1_n_n.wf _ _ _ _ _ hw hb g w _ b

theorem ref3 [Cert.ReferenceIdeal.Facts] (g : FVec Ideal Cert.ReferenceIdeal.S3200000x16 .f32)
    (w : FVec Ideal Cert.ReferenceIdeal.S3200000 .f32) (W : FVec Ideal Cert.ReferenceIdeal.S32x16 .f32)
    (b : FVec Ideal Cert.ReferenceIdeal.S32 .f32)
    (hw : Cert.ReferenceIdeal.S3200000.ShapeCasts Cert.ReferenceIdeal.S3200000x1)
    (hb : Cert.ReferenceIdeal.S32.ShapeCasts Cert.ReferenceIdeal.S1x32) :
    Cert.ReferenceIdeal.Spec.edge3 (F := Ideal) g w W b
      = edgeVal (E := 3200000) (K := 16) (M := 32) g (shapeCast Cert.ReferenceIdeal.S3200000x1 w hw)
          (transpose Cert.ReferenceIdeal.S16x32 [1, 0] W Cert.ReferenceIdeal.Facts₀.transposes_S32x16_S16x32_1_0)
          (shapeCast Cert.ReferenceIdeal.S1x32 b hb) :=
  refGen Cert.ReferenceIdeal.dot_S3200000x16_S16x32_S3200000x32_1_0_0_1_n_n.wf _ _ _ _ _ hw hb g w _ b

end Cert.EdgeMath

end
-- ==== Proof.Region0.lean ====
/-
  Region 0's output array, whole. The region runs the per-edge stage on 400 blocks of 8000 edges: point `t` loads rows
  `8000 t … 8000 t + 7999` of the looked-up features and of the weight column, the whole 4×8 matrix and the whole
  bias row, and writes back rows `8000 t … 8000 t + 7999` of the result. A row of the per-edge stage reads only that row
  of the features and of the weights, so what point `t` writes is block `t` of ONE function of the four arrays as the
  region finds them — `edgeVal` of them —, and since the blocks tile the 3200000 rows, that function is the array the
  region leaves.
-/
import proofs.«158551_j56478819942817_2_alg».proof.Proof.Gen.KernelIdeal.Frame
import proofs.«158551_j56478819942817_2_alg».proof.Proof.EdgeMath
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMath

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 400 points: the features', the weights' and the output's blocks move together down
    the rows (block `t` at point `t`), the matrix and the bias row stay whole. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- The array the region leaves: the per-edge stage of its four input arrays as it finds them. -/
abbrev G (c : Dev nD) : S3200000x8.Idx → EReal :=
  edgeVal (E := 3200000) (K := 4) (M := 8) (V c main_v23) (V c main_v4) (V c main_v24) (V c main_v25)

/-- What point `t` writes back is block `t` of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S8000x4) hz, View.ld_unit_zero (S := S8000x1) hz, View.ld_unit_zero (S := S4x8) hz,
    View.ld_unit_zero (S := S1x8) hz]
  rw [pay0]
  obtain ⟨e0, e1, e2, e3, e4, e5, e6, e7, e8, e9⟩ := idx_facts t
  funext j
  show edgeVal (E := 8000) (K := 4) (M := 8) (iblk0 V c 0 t) (iblk0 V c 1 t) (iblk0 V c 2 t) (iblk0 V c 3 t) j
    = edgeVal (E := 3200000) (K := 4) (M := 8) (V c main_v23) (V c main_v4) (V c main_v24) (V c main_v25) (((cfg0.win 4).blk t).view.emb j)
  -- each block read, where the output's rectangle says
  have r0 : ∀ k : Fin 4, iblk0 V c 0 t (ix2 (n0 := 8000) (n1 := 4) (j 0) k)
      = V c main_v23 (ix2 (n0 := 3200000) (n1 := 4) ((((cfg0.win 4).blk t).view.emb j) 0) k) := fun k => by
    show V c main_v23 (((cfg0.win 0).blk t).view.emb (ix2 (n0 := 8000) (n1 := 4) (j 0) k)) = _
    refine congrArg (V c main_v23) (funext fun a => Fin.ext ?_)
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 4 + 1 * k.val = k.val; omega
  have r1 : iblk0 V c 1 t (ix2 (n0 := 8000) (n1 := 1) (j 0) 0)
      = V c main_v4 (ix2 (n0 := 3200000) (n1 := 1) ((((cfg0.win 4).blk t).view.emb j) 0) 0) := by
    show V c main_v4 (((cfg0.win 1).blk t).view.emb (ix2 (n0 := 8000) (n1 := 1) (j 0) 0)) = _
    refine congrArg (V c main_v4) (funext fun a => Fin.ext ?_)
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 1 + 1 * 0 = 0; omega
  have r2 : ∀ k : Fin 4, iblk0 V c 2 t (ix2 (n0 := 4) (n1 := 8) k (j 1))
      = V c main_v24 (ix2 (n0 := 4) (n1 := 8) k ((((cfg0.win 4).blk t).view.emb j) 1)) := fun k => by
    show V c main_v24 (((cfg0.win 2).blk t).view.emb (ix2 (n0 := 4) (n1 := 8) k (j 1))) = _
    refine congrArg (V c main_v24) (funext fun a => Fin.ext ?_)
    match a with
    | ⟨0, _⟩ => show win0_2.index t (0 : Fin 2) * 4 + 1 * k.val = k.val; omega
    | ⟨1, _⟩ => show win0_2.index t (1 : Fin 2) * 8 + 1 * (j 1).val = win0_4.index t (1 : Fin 2) * 8 + 1 * (j 1).val; omega
  have r3 : iblk0 V c 3 t (ix2 (n0 := 1) (n1 := 8) 0 (j 1))
      = V c main_v25 (ix2 (n0 := 1) (n1 := 8) 0 ((((cfg0.win 4).blk t).view.emb j) 1)) := by
    show V c main_v25 (((cfg0.win 3).blk t).view.emb (ix2 (n0 := 1) (n1 := 8) 0 (j 1))) = _
    refine congrArg (V c main_v25) (funext fun a => Fin.ext ?_)
    match a with
    | ⟨0, _⟩ => show win0_3.index t (0 : Fin 2) * 1 + 1 * 0 = 0; omega
    | ⟨1, _⟩ => show win0_3.index t (1 : Fin 2) * 8 + 1 * (j 1).val = win0_4.index t (1 : Fin 2) * 8 + 1 * (j 1).val; omega
  unfold edgeVal
  simp only [r0, r1, r2, r3]

/-- An index of the array is in point `t`'s block iff each coordinate is in the block's range on its axis. -/
theorem mem_blk (t : Fin cfg0.N) (i : S3200000x8.Idx) :
    i ∈ ((cfg0.win 4).blk t).view.set ↔ ∀ a : Fin 2, win0_4.index t a * S8000x8.size a ≤ (i a).val ∧ (i a).val < win0_4.index t a * S8000x8.size a + S8000x8.size a := by
  show i ∈ ((View.whole main_v26).slice (win0_4.rect t)).set ↔ _
  rw [View.set_slice_whole, Rect.mem_set_unit]
  exact Iff.rfl

/-- The 400 blocks of 8000 rows tile the 3200000 rows: row `r` is in the block of point `r / 8000`. -/
theorem cover (i : S3200000x8.Idx) : ∃ t : Fin cfg0.N, (cfg0.win 4).flush t = true ∧ i ∈ ((cfg0.win 4).blk t).view.set := by
  have hi0 : (i 0).val < 3200000 := (i 0).isLt
  have hi1 : (i 1).val < 8 := (i 1).isLt
  have hN : grid0.N = 400 := N_0
  have ht : (i 0).val / 8000 < grid0.N := by omega
  obtain ⟨e0, e1, e2, e3, e4, e5, e6, e7, e8, e9⟩ := idx_facts (⟨(i 0).val / 8000, ht⟩ : Fin cfg0.N)
  have e9' : win0_4.index (⟨(i 0).val / 8000, ht⟩ : Fin cfg0.N) (0 : Fin 2) = (i 0).val / 8000 := e9
  refine ⟨⟨(i 0).val / 8000, ht⟩, flush0_4 _, ?_⟩
  rw [mem_blk]
  intro a
  match a with
  | ⟨0, _⟩ =>
    show win0_4.index (⟨(i 0).val / 8000, ht⟩ : Fin cfg0.N) (0 : Fin 2) * 8000 ≤ (i 0).val ∧ (i 0).val < win0_4.index (⟨(i 0).val / 8000, ht⟩ : Fin cfg0.N) (0 : Fin 2) * 8000 + 8000
    omega
  | ⟨1, _⟩ =>
    show win0_4.index (⟨(i 0).val / 8000, ht⟩ : Fin cfg0.N) (1 : Fin 2) * 8 ≤ (i 1).val ∧ (i 1).val < win0_4.index (⟨(i 0).val / 8000, ht⟩ : Fin cfg0.N) (1 : Fin 2) * 8 + 8
    omega

/-- The array the region leaves in its output buffer is `G`. -/
theorem arr_eq (c : Dev nD) : (dat0 V c).arrAt 4 cfg0.N = G V c :=
  (dat0 V c).arrAt_eq_of_cover 4 (G V c) (fun t _ => flushed_eq V c t) cover

end Cert.KernelIdeal.Region0

end
-- ==== Proof.Region1.lean ====
/-
  Region 1's output array, whole. The region runs the per-edge stage on 400 blocks of 8000 edges: point `t` loads rows
  `8000 t … 8000 t + 7999` of the looked-up features and of the weight column, the whole 8×16 matrix and the whole
  bias row, and writes back rows `8000 t … 8000 t + 7999` of the result. A row of the per-edge stage reads only that row
  of the features and of the weights, so what point `t` writes is block `t` of ONE function of the four arrays as the
  region finds them — `edgeVal` of them —, and since the blocks tile the 3200000 rows, that function is the array the
  region leaves.
-/
import proofs.«158551_j56478819942817_2_alg».proof.Proof.Gen.KernelIdeal.Frame
import proofs.«158551_j56478819942817_2_alg».proof.Proof.EdgeMath
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMath

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 400 points: the features', the weights' and the output's blocks move together down
    the rows (block `t` at point `t`), the matrix and the bias row stay whole. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- The array the region leaves: the per-edge stage of its four input arrays as it finds them. -/
abbrev G (c : Dev nD) : S3200000x16.Idx → EReal :=
  edgeVal (E := 3200000) (K := 8) (M := 16) (V c main_v44) (V c main_v4) (V c main_v45) (V c main_v46)

/-- What point `t` writes back is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S8000x8) hz, View.ld_unit_zero (S := S8000x1) hz, View.ld_unit_zero (S := S8x16) hz,
    View.ld_unit_zero (S := S1x16) hz]
  rw [pay1]
  obtain ⟨e0, e1, e2, e3, e4, e5, e6, e7, e8, e9⟩ := idx_facts t
  funext j
  show edgeVal (E := 8000) (K := 8) (M := 16) (iblk1 V c 0 t) (iblk1 V c 1 t) (iblk1 V c 2 t) (iblk1 V c 3 t) j
    = edgeVal (E := 3200000) (K := 8) (M := 16) (V c main_v44) (V c main_v4) (V c main_v45) (V c main_v46) (((cfg1.win 4).blk t).view.emb j)
  -- each block read, where the output's rectangle says
  have r0 : ∀ k : Fin 8, iblk1 V c 0 t (ix2 (n0 := 8000) (n1 := 8) (j 0) k)
      = V c main_v44 (ix2 (n0 := 3200000) (n1 := 8) ((((cfg1.win 4).blk t).view.emb j) 0) k) := fun k => by
    show V c main_v44 (((cfg1.win 0).blk t).view.emb (ix2 (n0 := 8000) (n1 := 8) (j 0) k)) = _
    refine congrArg (V c main_v44) (funext fun a => Fin.ext ?_)
    match a with
    | ⟨0, _⟩ => show win1_0.index t (0 : Fin 2) * 8000 + 1 * (j 0).val = win1_4.index t (0 : Fin 2) * 8000 + 1 * (j 0).val; omega
    | ⟨1, _⟩ => show win1_0.index t (1 : Fin 2) * 8 + 1 * k.val = k.val; omega
  have r1 : iblk1 V c 1 t (ix2 (n0 := 8000) (n1 := 1) (j 0) 0)
      = V c main_v4 (ix2 (n0 := 3200000) (n1 := 1) ((((cfg1.win 4).blk t).view.emb j) 0) 0) := by
    show V c main_v4 (((cfg1.win 1).blk t).view.emb (ix2 (n0 := 8000) (n1 := 1) (j 0) 0)) = _
    refine congrArg (V c main_v4) (funext fun a => Fin.ext ?_)
    match a with
    | ⟨0, _⟩ => show win1_1.index t (0 : Fin 2) * 8000 + 1 * (j 0).val = win1_4.index t (0 : Fin 2) * 8000 + 1 * (j 0).val; omega
    | ⟨1, _⟩ => show win1_1.index t (1 : Fin 2) * 1 + 1 * 0 = 0; omega
  have r2 : ∀ k : Fin 8, iblk1 V c 2 t (ix2 (n0 := 8) (n1 := 16) k (j 1))
      = V c main_v45 (ix2 (n0 := 8) (n1 := 16) k ((((cfg1.win 4).blk t).view.emb j) 1)) := fun k => by
    show V c main_v45 (((cfg1.win 2).blk t).view.emb (ix2 (n0 := 8) (n1 := 16) k (j 1))) = _
    refine congrArg (V c main_v45) (funext fun a => Fin.ext ?_)
    match a with
    | ⟨0, _⟩ => show win1_2.index t (0 : Fin 2) * 8 + 1 * k.val = k.val; omega
    | ⟨1, _⟩ => show win1_2.index t (1 : Fin 2) * 16 + 1 * (j 1).val = win1_4.index t (1 : Fin 2) * 16 + 1 * (j 1).val; omega
  have r3 : iblk1 V c 3 t (ix2 (n0 := 1) (n1 := 16) 0 (j 1))
      = V c main_v46 (ix2 (n0 := 1) (n1 := 16) 0 ((((cfg1.win 4).blk t).view.emb j) 1)) := by
    show V c main_v46 (((cfg1.win 3).blk t).view.emb (ix2 (n0 := 1) (n1 := 16) 0 (j 1))) = _
    refine congrArg (V c main_v46) (funext fun a => Fin.ext ?_)
    match a with
    | ⟨0, _⟩ => show win1_3.index t (0 : Fin 2) * 1 + 1 * 0 = 0; omega
    | ⟨1, _⟩ => show win1_3.index t (1 : Fin 2) * 16 + 1 * (j 1).val = win1_4.index t (1 : Fin 2) * 16 + 1 * (j 1).val; omega
  unfold edgeVal
  simp only [r0, r1, r2, r3]

/-- An index of the array is in point `t`'s block iff each coordinate is in the block's range on its axis. -/
theorem mem_blk (t : Fin cfg1.N) (i : S3200000x16.Idx) :
    i ∈ ((cfg1.win 4).blk t).view.set ↔ ∀ a : Fin 2, win1_4.index t a * S8000x16.size a ≤ (i a).val ∧ (i a).val < win1_4.index t a * S8000x16.size a + S8000x16.size a := by
  show i ∈ ((View.whole main_v47).slice (win1_4.rect t)).set ↔ _
  rw [View.set_slice_whole, Rect.mem_set_unit]
  exact Iff.rfl

/-- The 400 blocks of 8000 rows tile the 3200000 rows: row `r` is in the block of point `r / 8000`. -/
theorem cover (i : S3200000x16.Idx) : ∃ t : Fin cfg1.N, (cfg1.win 4).flush t = true ∧ i ∈ ((cfg1.win 4).blk t).view.set := by
  have hi0 : (i 0).val < 3200000 := (i 0).isLt
  have hi1 : (i 1).val < 16 := (i 1).isLt
  have hN : grid1.N = 400 := N_1
  have ht : (i 0).val / 8000 < grid1.N := by omega
  obtain ⟨e0, e1, e2, e3, e4, e5, e6, e7, e8, e9⟩ := idx_facts (⟨(i 0).val / 8000, ht⟩ : Fin cfg1.N)
  have e9' : win1_4.index (⟨(i 0).val / 8000, ht⟩ : Fin cfg1.N) (0 : Fin 2) = (i 0).val / 8000 := e9
  refine ⟨⟨(i 0).val / 8000, ht⟩, flush1_4 _, ?_⟩
  rw [mem_blk]
  intro a
  match a with
  | ⟨0, _⟩ =>
    show win1_4.index (⟨(i 0).val / 8000, ht⟩ : Fin cfg1.N) (0 : Fin 2) * 8000 ≤ (i 0).val ∧ (i 0).val < win1_4.index (⟨(i 0).val / 8000, ht⟩ : Fin cfg1.N) (0 : Fin 2) * 8000 + 8000
    omega
  | ⟨1, _⟩ =>
    show win1_4.index (⟨(i 0).val / 8000, ht⟩ : Fin cfg1.N) (1 : Fin 2) * 16 ≤ (i 1).val ∧ (i 1).val < win1_4.index (⟨(i 0).val / 8000, ht⟩ : Fin cfg1.N) (1 : Fin 2) * 16 + 16
    omega

/-- The array the region leaves in its output buffer is `G`. -/
theorem arr_eq (c : Dev nD) : (dat1 V c).arrAt 4 cfg1.N = G V c :=
  (dat1 V c).arrAt_eq_of_cover 4 (G V c) (fun t _ => flushed_eq V c t) cover

end Cert.KernelIdeal.Region1

end
-- ==== Proof.Region2.lean ====
/-
  Region 2's output array, whole. The region runs the per-edge stage on 400 blocks of 8000 edges: point `t` loads rows
  `8000 t … 8000 t + 7999` of the looked-up features and of the weight column, the whole 16×32 matrix and the whole
  bias row, and writes back rows `8000 t … 8000 t + 7999` of the result. A row of the per-edge stage reads only that row
  of the features and of the weights, so what point `t` writes is block `t` of ONE function of the four arrays as the
  region finds them — `edgeVal` of them —, and since the blocks tile the 3200000 rows, that function is the array the
  region leaves.
-/
import proofs.«158551_j56478819942817_2_alg».proof.Proof.Gen.KernelIdeal.Frame
import proofs.«158551_j56478819942817_2_alg».proof.Proof.EdgeMath
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMath

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 400 points: the features', the weights' and the output's blocks move together down
    the rows (block `t` at point `t`), the matrix and the bias row stay whole. -/
theorem idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

/-- The array the region leaves: the per-edge stage of its four input arrays as it finds them. -/
abbrev G (c : Dev nD) : S3200000x32.Idx → EReal :=
  edgeVal (E := 3200000) (K := 16) (M := 32) (V c main_v65) (V c main_v4) (V c main_v66) (V c main_v67)

/-- What point `t` writes back is block `t` of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S8000x16) hz, View.ld_unit_zero (S := S8000x1) hz, View.ld_unit_zero (S := S16x32) hz,
    View.ld_unit_zero (S := S1x32) hz]
  rw [pay2]
  obtain ⟨e0, e1, e2, e3, e4, e5, e6, e7, e8, e9⟩ := idx_facts t
  funext j
  show edgeVal (E := 8000) (K := 16) (M := 32) (iblk2 V c 0 t) (iblk2 V c 1 t) (iblk2 V c 2 t) (iblk2 V c 3 t) j
    = edgeVal (E := 3200000) (K := 16) (M := 32) (V c main_v65) (V c main_v4) (V c main_v66) (V c main_v67) (((cfg2.win 4).blk t).view.emb j)
  -- each block read, where the output's rectangle says
  have r0 : ∀ k : Fin 16, iblk2 V c 0 t (ix2 (n0 := 8000) (n1 := 16) (j 0) k)
      = V c main_v65 (ix2 (n0 := 3200000) (n1 := 16) ((((cfg2.win 4).blk t).view.emb j) 0) k) := fun k => by
    show V c main_v65 (((cfg2.win 0).blk t).view.emb (ix2 (n0 := 8000) (n1 := 16) (j 0) k)) = _
    refine congrArg (V c main_v65) (funext fun a => Fin.ext ?_)
    match a with
    | ⟨0, _⟩ => show win2_0.index t (0 : Fin 2) * 8000 + 1 * (j 0).val = win2_4.index t (0 : Fin 2) * 8000 + 1 * (j 0).val; omega
    | ⟨1, _⟩ => show win2_0.index t (1 : Fin 2) * 16 + 1 * k.val = k.val; omega
  have r1 : iblk2 V c 1 t (ix2 (n0 := 8000) (n1 := 1) (j 0) 0)
      = V c main_v4 (ix2 (n0 := 3200000) (n1 := 1) ((((cfg2.win 4).blk t).view.emb j) 0) 0) := by
    show V c main_v4 (((cfg2.win 1).blk t).view.emb (ix2 (n0 := 8000) (n1 := 1) (j 0) 0)) = _
    refine congrArg (V c main_v4) (funext fun a => Fin.ext ?_)
    match a with
    | ⟨0, _⟩ => show win2_1.index t (0 : Fin 2) * 8000 + 1 * (j 0).val = win2_4.index t (0 : Fin 2) * 8000 + 1 * (j 0).val; omega
    | ⟨1, _⟩ => show win2_1.index t (1 : Fin 2) * 1 + 1 * 0 = 0; omega
  have r2 : ∀ k : Fin 16, iblk2 V c 2 t (ix2 (n0 := 16) (n1 := 32) k (j 1))
      = V c main_v66 (ix2 (n0 := 16) (n1 := 32) k ((((cfg2.win 4).blk t).view.emb j) 1)) := fun k => by
    show V c main_v66 (((cfg2.win 2).blk t).view.emb (ix2 (n0 := 16) (n1 := 32) k (j 1))) = _
    refine congrArg (V c main_v66) (funext fun a => Fin.ext ?_)
    match a with
    | ⟨0, _⟩ => show win2_2.index t (0 : Fin 2) * 16 + 1 * k.val = k.val; omega
    | ⟨1, _⟩ => show win2_2.index t (1 : Fin 2) * 32 + 1 * (j 1).val = win2_4.index t (1 : Fin 2) * 32 + 1 * (j 1).val; omega
  have r3 : iblk2 V c 3 t (ix2 (n0 := 1) (n1 := 32) 0 (j 1))
      = V c main_v67 (ix2 (n0 := 1) (n1 := 32) 0 ((((cfg2.win 4).blk t).view.emb j) 1)) := by
    show V c main_v67 (((cfg2.win 3).blk t).view.emb (ix2 (n0 := 1) (n1 := 32) 0 (j 1))) = _
    refine congrArg (V c main_v67) (funext fun a => Fin.ext ?_)
    match a with
    | ⟨0, _⟩ => show win2_3.index t (0 : Fin 2) * 1 + 1 * 0 = 0; omega
    | ⟨1, _⟩ => show win2_3.index t (1 : Fin 2) * 32 + 1 * (j 1).val = win2_4.index t (1 : Fin 2) * 32 + 1 * (j 1).val; omega
  unfold edgeVal
  simp only [r0, r1, r2, r3]

/-- An index of the array is in point `t`'s block iff each coordinate is in the block's range on its axis. -/
theorem mem_blk (t : Fin cfg2.N) (i : S3200000x32.Idx) :
    i ∈ ((cfg2.win 4).blk t).view.set ↔ ∀ a : Fin 2, win2_4.index t a * S8000x32.size a ≤ (i a).val ∧ (i a).val < win2_4.index t a * S8000x32.size a + S8000x32.size a := by
  show i ∈ ((View.whole main_v68).slice (win2_4.rect t)).set ↔ _
  rw [View.set_slice_whole, Rect.mem_set_unit]
  exact Iff.rfl

/-- The 400 blocks of 8000 rows tile the 3200000 rows: row `r` is in the block of point `r / 8000`. -/
theorem cover (i : S3200000x32.Idx) : ∃ t : Fin cfg2.N, (cfg2.win 4).flush t = true ∧ i ∈ ((cfg2.win 4).blk t).view.set := by
  have hi0 : (i 0).val < 3200000 := (i 0).isLt
  have hi1 : (i 1).val < 32 := (i 1).isLt
  have hN : grid2.N = 400 := N_2
  have ht : (i 0).val / 8000 < grid2.N := by omega
  obtain ⟨e0, e1, e2, e3, e4, e5, e6, e7, e8, e9⟩ := idx_facts (⟨(i 0).val / 8000, ht⟩ : Fin cfg2.N)
  have e9' : win2_4.index (⟨(i 0).val / 8000, ht⟩ : Fin cfg2.N) (0 : Fin 2) = (i 0).val / 8000 := e9
  refine ⟨⟨(i 0).val / 8000, ht⟩, flush2_4 _, ?_⟩
  rw [mem_blk]
  intro a
  match a with
  | ⟨0, _⟩ =>
    show win2_4.index (⟨(i 0).val / 8000, ht⟩ : Fin cfg2.N) (0 : Fin 2) * 8000 ≤ (i 0).val ∧ (i 0).val < win2_4.index (⟨(i 0).val / 8000, ht⟩ : Fin cfg2.N) (0 : Fin 2) * 8000 + 8000
    omega
  | ⟨1, _⟩ =>
    show win2_4.index (⟨(i 0).val / 8000, ht⟩ : Fin cfg2.N) (1 : Fin 2) * 32 ≤ (i 1).val ∧ (i 1).val < win2_4.index (⟨(i 0).val / 8000, ht⟩ : Fin cfg2.N) (1 : Fin 2) * 32 + 32
    omega

/-- The array the region leaves in its output buffer is `G`. -/
theorem arr_eq (c : Dev nD) : (dat2 V c).arrAt 4 cfg2.N = G V c :=
  (dat2 V c).arrAt_eq_of_cover 4 (G V c) (fun t _ => flushed_eq V c t) cover

end Cert.KernelIdeal.Region2

end
-- ==== Proof.KHost.lean ====
/-
  The idealized kernel program's result over the extended reals. Each region leaves the per-edge stage of its four input
  arrays in its output buffer (`Region0/1/2`: the 400 blocks are the blocks of one whole-array function), and that
  function of the looked-up rows, the weight column, the transposed matrix and the bias row is the Spec's per-edge
  stage (`EdgeMath`). Put into the host read-backs (`KHostA … KHostD`, where each region's output was an unknown),
  block by block: the node features after block 1 and after block 2 are the Spec's, and the result buffer is `Spec.out`
  of the argument arrays.
-/
import proofs.«158551_j56478819942817_2_alg».proof.Proof.KHostD
import proofs.«158551_j56478819942817_2_alg».proof.Proof.EdgeMath
import proofs.«158551_j56478819942817_2_alg».proof.Proof.Region0
import proofs.«158551_j56478819942817_2_alg».proof.Proof.Region1
import proofs.«158551_j56478819942817_2_alg».proof.Proof.Region2
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo
open Cert.EdgeMath

variable (m : (ℓ : Loc nD τ sig) → Buf (Elt Ideal) ℓ) (ρ : Dev nD → PrngReg) (c : Dev nD)

/-- Region 0 leaves block 1's per-edge stage of the rows of `x` at the edges' sources. -/
theorem edge1_eq : W4 m ρ c (Proc.devRef .tc main_v26)
    = Cert.ReferenceIdeal.Spec.edge1 (F := Ideal) (Cert.ReferenceIdeal.Spec.look1 (F := Ideal) (m ((c.tc : Thread nD τ).loc main_arg1)) (m ((c.tc : Thread nD τ).loc main_arg0))) (m ((c.tc : Thread nD τ).loc main_arg2)) (m ((c.tc : Thread nD τ).loc main_arg3)) (m ((c.tc : Thread nD τ).loc main_arg4)) := by
  refine ((W4_arr m ρ c 4).trans (Region0.arr_eq (V3 m ρ) c)).trans ?_
  show edgeVal (E := 3200000) (K := 4) (M := 8) (W3 m ρ c (Proc.devRef .tc main_v23)) (W3 m ρ c (Proc.devRef .tc main_v4)) (W3 m ρ c (Proc.devRef .tc main_v24))
    (W3 m ρ c (Proc.devRef .tc main_v25)) = _
  rw [KHostA.look1_eq, KHostA.weightCol_eq, KHostA.matT1_eq, KHostA.biasRow1_eq]
  exact (ref1 _ _ _ _ _ _).symm

/-- The node features after block 1 are the Spec's. -/
theorem h1_eq : W7 m ρ c (Proc.devRef .tc main_v37) = (Cert.ReferenceIdeal.Spec.block1 (F := Ideal) (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) := by
  rw [KHostB.h1_eq, edge1_eq]
  rfl

/-- Region 1 leaves block 2's per-edge stage of the rows of those features at the edges' sources. -/
theorem edge2_eq : W8 m ρ c (Proc.devRef .tc main_v47)
    = Cert.ReferenceIdeal.Spec.edge2 (F := Ideal) (Cert.ReferenceIdeal.Spec.look2 (F := Ideal) (m ((c.tc : Thread nD τ).loc main_arg1)) (Cert.ReferenceIdeal.Spec.block1 (F := Ideal) (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4)))) (m ((c.tc : Thread nD τ).loc main_arg2)) (m ((c.tc : Thread nD τ).loc main_arg5)) (m ((c.tc : Thread nD τ).loc main_arg6)) := by
  refine ((W8_arr m ρ c 4).trans (Region1.arr_eq (V7 m ρ) c)).trans ?_
  show edgeVal (E := 3200000) (K := 8) (M := 16) (W7 m ρ c (Proc.devRef .tc main_v44)) (W7 m ρ c (Proc.devRef .tc main_v4)) (W7 m ρ c (Proc.devRef .tc main_v45))
    (W7 m ρ c (Proc.devRef .tc main_v46)) = _
  rw [KHostB.look2_eq, h1_eq, KHostB.weightCol_eq, KHostB.matT2_eq, KHostB.biasRow2_eq]
  exact (ref2 _ _ _ _ _ _).symm

/-- The node features after block 2 are the Spec's. -/
theorem h2_eq : W11 m ρ c (Proc.devRef .tc main_v58) = (Cert.ReferenceIdeal.Spec.block2 (F := Ideal) (m ((c.tc : Thread nD τ).loc main_arg1)) (m ((c.tc : Thread nD τ).loc main_arg2)) (Cert.ReferenceIdeal.Spec.block1 (F := Ideal) (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) := by
  rw [KHostC.h2_eq, edge2_eq, h1_eq]
  rfl

/-- Region 2 leaves block 3's per-edge stage of the rows of those features at the edges' sources. -/
theorem edge3_eq : W12 m ρ c (Proc.devRef .tc main_v68)
    = Cert.ReferenceIdeal.Spec.edge3 (F := Ideal) (Cert.ReferenceIdeal.Spec.look3 (F := Ideal) (m ((c.tc : Thread nD τ).loc main_arg1)) (Cert.ReferenceIdeal.Spec.block2 (F := Ideal) (m ((c.tc : Thread nD τ).loc main_arg1)) (m ((c.tc : Thread nD τ).loc main_arg2)) (Cert.ReferenceIdeal.Spec.block1 (F := Ideal) (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)))) (m ((c.tc : Thread nD τ).loc main_arg2)) (m ((c.tc : Thread nD τ).loc main_arg7)) (m ((c.tc : Thread nD τ).loc main_arg8)) := by
  refine ((W12_arr m ρ c 4).trans (Region2.arr_eq (V11 m ρ) c)).trans ?_
  show edgeVal (E := 3200000) (K := 16) (M := 32) (W11 m ρ c (Proc.devRef .tc main_v65)) (W11 m ρ c (Proc.devRef .tc main_v4)) (W11 m ρ c (Proc.devRef .tc main_v66))
    (W11 m ρ c (Proc.devRef .tc main_v67)) = _
  rw [KHostC.look3_eq, h2_eq, KHostC.weightCol_eq, KHostC.matT3_eq, KHostC.biasRow3_eq]
  exact (ref3 _ _ _ _ _ _).symm

/-- The result buffer ends at `Spec.out` of the argument arrays. -/
theorem result_eq :
    W16 m ρ c (Proc.devRef .tc main_v88)
      = Cert.ReferenceIdeal.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [KHostD.out_eq, edge3_eq, h2_eq]
  rfl

end Cert.KernelIdeal.KHost

end
-- ==== Proof.RefOps.lean ====
/-
  The reference program's @main as lists of its host operations, in order: one list per stretch of @main's own
  statements and one per call of a module-local function (the callee's statements at the call's buffers), each window
  of @main as the chain of its lists, and @main as the chain of all of them. Every list is the printed program's
  statements restated; the chain equations are checked by definitional unfolding.
-/
import proofs.«158551_j56478819942817_2_alg».proof.Proof.Gen.ReferenceIdeal
import Idealize.ShloMosaic.Lib.StableHlo.Run
import Idealize.ShloMosaic.Lib.Pipeline.Regions

set_option maxRecDepth 16384

noncomputable section

namespace Cert.ReferenceIdeal.RefOps

open Cert.ReferenceIdeal Idealize.ShloMosaic Idealize.ShloMosaic.TcCoe Idealize.SL.Sem
open Facts₀ Facts

variable {F : FTy → Type} [FloatOps F]

/-- 20 operations of @main, window 0, in order. -/
abbrev ops0_0 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_cst (constant S_ .f32 0x3F800000#32),
    StableHlo.unary main_cst main_v4 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S3200000x1 ![0] bcast_S3200000_S3200000x1_0 : (⟨S3200000, .i32⟩ : BufTy).Contents (Elt F) → (⟨S3200000x1, .i32⟩ : BufTy).Contents (Elt F)),
    StableHlo.ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (maximumf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x3F800000#32),
    StableHlo.unary main_cst_3 main_v12 (broadcastInDim S100000 ![] bcast_S_S100000 : (⟨S_, .f32⟩ : BufTy).Contents (Elt F) → (⟨S100000, .f32⟩ : BufTy).Contents (Elt F)),
    StableHlo.binary main_v12 main_v11 main_v13 (Host.divf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32) ]
theorem ops0_0_sub : (ops0_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩

/-- 3 operations of @where (main_call0), window 0, in order. -/
abbrev ops0_1 : List (HloOp τ sig (Elt F)) :=
  [ StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v9 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select ]
theorem ops0_1_sub : (ops0_1 : List (HloOp τ sig (Elt F))).Forall fun op => op.bufs ⊆ StableHlo.tcRefs τ sig :=
  ⟨StableHlo.unary_bufs_sub .., StableHlo.unary_bufs_sub .., StableHlo.ternary_bufs_sub ..⟩

/-- 18 operations of @main, window 0, in order. -/
abbrev ops0_2 : List (HloOp τ sig (Elt F)) :=
  [ StableHlo.unary main_v14 main_v15 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v16 (broadcastInDim S3200000 ![] bcast_S_S3200000 : (⟨S_, .i32⟩ : BufTy).Contents (Elt F) → (⟨S3200000, .i32⟩ : BufTy).Contents (Elt F)),
    StableHlo.binary main_v3 main_v16 main_v17 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v18 (broadcastInDim S3200000 ![] bcast_S_S3200000 : (⟨S_, .i32⟩ : BufTy).Contents (Elt F) → (⟨S3200000, .i32⟩ : BufTy).Contents (Elt F)),
    StableHlo.binary main_v3 main_v18 main_v19 (addi : (⟨S3200000, .i32⟩ : BufTy).Contents (Elt F) → (⟨S3200000, .i32⟩ : BufTy).Contents (Elt F) → (⟨S3200000, .i32⟩ : BufTy).Contents (Elt F)),
    StableHlo.ternary main_v17 main_v19 main_v3 main_v20 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v20 main_v21 (broadcastInDim S3200000x1 ![0] bcast_S3200000_S3200000x1_0 : (⟨S3200000, .i32⟩ : BufTy).Contents (Elt F) → (⟨S3200000x1, .i32⟩ : BufTy).Contents (Elt F)),
    StableHlo.binary main_arg0 main_v21 main_v22 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    StableHlo.unary main_arg2 main_v23 (broadcastInDim S3200000x1 ![0] bcast_S3200000_S3200000x1_0 : (⟨S3200000, .f32⟩ : BufTy).Contents (Elt F) → (⟨S3200000x1, .f32⟩ : BufTy).Contents (Elt F)),
    StableHlo.unary main_v23 main_v24 (broadcastInDim S3200000x4 ![0, 1] bcast_S3200000x1_S3200000x4_0_1 : (⟨S3200000x1, .f32⟩ : BufTy).Contents (Elt F) → (⟨S3200000x4, .f32⟩ : BufTy).Contents (Elt F)),
    StableHlo.binary main_v22 main_v24 main_v25 (mulf : (⟨S3200000x4, .f32⟩ : BufTy).Contents (Elt F) → (⟨S3200000x4, .f32⟩ : BufTy).Contents (Elt F) → (⟨S3200000x4, .f32⟩ : BufTy).Contents (Elt F)),
    StableHlo.unary main_arg3 main_v26 ((transpose S4x8 [1, 0] · transposes_S8x4_S4x8_1_0) : (⟨S8x4, .f32⟩ : BufTy).Contents (Elt F) → (⟨S4x8, .f32⟩ : BufTy).Contents (Elt F)),
    StableHlo.binary main_v25 main_v26 main_v27 ((fun l r => Host.dotGeneral dot_S3200000x4_S4x8_S3200000x8_1_0_0_1_n_n none l r) : (⟨S3200000x4, .f32⟩ : BufTy).Contents (Elt F) → (⟨S4x8, .f32⟩ : BufTy).Contents (Elt F) → (⟨S3200000x8, .f32⟩ : BufTy).Contents (Elt F)),
    StableHlo.unary main_arg4 main_v28 (broadcastInDim S1x8 ![1] bcast_S8_S1x8_1 : (⟨S8, .f32⟩ : BufTy).Contents (Elt F) → (⟨S1x8, .f32⟩ : BufTy).Contents (Elt F)),
    StableHlo.unary main_v28 main_v29 (broadcastInDim S3200000x8 ![0, 1] bcast_S1x8_S3200000x8_0_1 : (⟨S1x8, .f32⟩ : BufTy).Contents (Elt F) → (⟨S3200000x8, .f32⟩ : BufTy).Contents (Elt F)),
    StableHlo.binary main_v27 main_v29 main_v30 (addf : (⟨S3200000x8, .f32⟩ : BufTy).Contents (Elt F) → (⟨S3200000x8, .f32⟩ : BufTy).Contents (Elt F) → (⟨S3200000x8, .f32⟩ : BufTy).Contents (Elt F)) ]
theorem ops0_2_sub : (ops0_2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- 7 operations of @leaky_relu (main_call1), window 0, in order. -/
abbrev ops0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S3200000x8, .f32⟩) (broadcastInDim S3200000x8 ![] bcast_S_S3200000x8),
    StableHlo.TRef.binary (.of main_v30 : StableHlo.TRef sig ⟨S3200000x8, .f32⟩) (.of main_call1_v0 : StableHlo.TRef sig ⟨S3200000x8, .f32⟩) (.of main_call1_v1 : StableHlo.TRef sig ⟨S3200000x8, .i1⟩) (cmpf .oge),
    StableHlo.TRef.nullary (.of main_call1_cst_0 : StableHlo.TRef sig ⟨S_, .f32⟩) (constant S_ .f32 0x3C23D70A#32),
    StableHlo.TRef.unary (.of main_call1_cst_0 : StableHlo.TRef sig ⟨S_, .f32⟩) (.of main_call1_v2 : StableHlo.TRef sig ⟨S3200000x8, .f32⟩) (broadcastInDim S3200000x8 ![] bcast_S_S3200000x8),
    StableHlo.TRef.binary (.of main_call1_v2 : StableHlo.TRef sig ⟨S3200000x8, .f32⟩) (.of main_v30 : StableHlo.TRef sig ⟨S3200000x8, .f32⟩) (.of main_call1_v3 : StableHlo.TRef sig ⟨S3200000x8, .f32⟩) mulf,
    StableHlo.TRef.ternary (.of main_call1_v1 : StableHlo.TRef sig ⟨S3200000x8, .i1⟩) (.of main_v30 : StableHlo.TRef sig ⟨S3200000x8, .f32⟩) (.of main_call1_v3 : StableHlo.TRef sig ⟨S3200000x8, .f32⟩) (.of main_v31 : StableHlo.TRef sig ⟨S3200000x8, .f32⟩) select ]
theorem ops0_3_sub : (ops0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 11 operations of @main, window 0, in order. -/
abbrev ops0_4 : List (HloOp τ sig (Elt F)) :=
  [ StableHlo.nullary main_cst_6 (constant S_ .f32 0x00000000#32),
    StableHlo.unary main_cst_6 main_v32 (broadcastInDim S100000x8 ![] bcast_S_S100000x8 : (⟨S_, .f32⟩ : BufTy).Contents (Elt F) → (⟨S100000x8, .f32⟩ : BufTy).Contents (Elt F)),
    StableHlo.unary main_v1 main_v33 (broadcastInDim S3200000x1 ![0] bcast_S3200000_S3200000x1_0 : (⟨S3200000, .i32⟩ : BufTy).Contents (Elt F) → (⟨S3200000x1, .i32⟩ : BufTy).Contents (Elt F)),
    StableHlo.ternary main_v32 main_v33 main_v31 main_v34 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)),
    StableHlo.unary main_v15 main_v35 (broadcastInDim S100000x8 ![0, 1] bcast_S100000x1_S100000x8_0_1 : (⟨S100000x1, .f32⟩ : BufTy).Contents (Elt F) → (⟨S100000x8, .f32⟩ : BufTy).Contents (Elt F)),
    StableHlo.binary main_v34 main_v35 main_v36 (mulf : (⟨S100000x8, .f32⟩ : BufTy).Contents (Elt F) → (⟨S100000x8, .f32⟩ : BufTy).Contents (Elt F) → (⟨S100000x8, .f32⟩ : BufTy).Contents (Elt F)),
    StableHlo.unary main_arg3 main_v37 ((transpose S4x8 [1, 0] · transposes_S8x4_S4x8_1_0) : (⟨S8x4, .f32⟩ : BufTy).Contents (Elt F) → (⟨S4x8, .f32⟩ : BufTy).Contents (Elt F)),
    StableHlo.binary main_arg0 main_v37 main_v38 ((fun l r => Host.dotGeneral dot_S100000x4_S4x8_S100000x8_1_0_0_1_n_n none l r) : (⟨S100000x4, .f32⟩ : BufTy).Contents (Elt F) → (⟨S4x8, .f32⟩ : BufTy).Contents (Elt F) → (⟨S100000x8, .f32⟩ : BufTy).Contents (Elt F)),
    StableHlo.unary main_arg4 main_v39 (broadcastInDim S1x8 ![1] bcast_S8_S1x8_1 : (⟨S8, .f32⟩ : BufTy).Contents (Elt F) → (⟨S1x8, .f32⟩ : BufTy).Contents (Elt F)),
    StableHlo.unary main_v39 main_v40 (broadcastInDim S100000x8 ![0, 1] bcast_S1x8_S100000x8_0_1 : (⟨S1x8, .f32⟩ : BufTy).Contents (Elt F) → (⟨S100000x8, .f32⟩ : BufTy).Contents (Elt F)),
    StableHlo.binary main_v38 main_v40 main_v41 (addf : (⟨S100000x8, .f32⟩ : BufTy).Contents (Elt F) → (⟨S100000x8, .f32⟩ : BufTy).Contents (Elt F) → (⟨S100000x8, .f32⟩ : BufTy).Contents (Elt F)) ]
theorem ops0_4_sub : (ops0_4 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- 7 operations of @leaky_relu_1 (main_call2), window 0, in order. -/
abbrev ops0_5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x8, .f32⟩) (broadcastInDim S100000x8 ![] bcast_S_S100000x8),
    StableHlo.TRef.binary (.of main_v41 : StableHlo.TRef sig ⟨S100000x8, .f32⟩) (.of main_call2_v0 : StableHlo.TRef sig ⟨S100000x8, .f32⟩) (.of main_call2_v1 : StableHlo.TRef sig ⟨S100000x8, .i1⟩) (cmpf .oge),
    StableHlo.TRef.nullary (.of main_call2_cst_0 : StableHlo.TRef sig ⟨S_, .f32⟩) (constant S_ .f32 0x3C23D70A#32),
    StableHlo.TRef.unary (.of main_call2_cst_0 : StableHlo.TRef sig ⟨S_, .f32⟩) (.of main_call2_v2 : StableHlo.TRef sig ⟨S100000x8, .f32⟩) (broadcastInDim S100000x8 ![] bcast_S_S100000x8),
    StableHlo.TRef.binary (.of main_call2_v2 : StableHlo.TRef sig ⟨S100000x8, .f32⟩) (.of main_v41 : StableHlo.TRef sig ⟨S100000x8, .f32⟩) (.of main_call2_v3 : StableHlo.TRef sig ⟨S100000x8, .f32⟩) mulf,
    StableHlo.TRef.ternary (.of main_call2_v1 : StableHlo.TRef sig ⟨S100000x8, .i1⟩) (.of main_v41 : StableHlo.TRef sig ⟨S100000x8, .f32⟩) (.of main_call2_v3 : StableHlo.TRef sig ⟨S100000x8, .f32⟩) (.of main_v42 : StableHlo.TRef sig ⟨S100000x8, .f32⟩) select ]
theorem ops0_5_sub : (ops0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 8 operations of @main, window 0, in order. -/
abbrev ops0_6 : List (HloOp τ sig (Elt F)) :=
  [ StableHlo.binary main_v36 main_v42 main_v43 (addf : (⟨S100000x8, .f32⟩ : BufTy).Contents (Elt F) → (⟨S100000x8, .f32⟩ : BufTy).Contents (Elt F) → (⟨S100000x8, .f32⟩ : BufTy).Contents (Elt F)),
    StableHlo.nullary main_c_7 (constantI S_ 32 0#32),
    StableHlo.unary main_c_7 main_v44 (broadcastInDim S3200000 ![] bcast_S_S3200000 : (⟨S_, .i32⟩ : BufTy).Contents (Elt F) → (⟨S3200000, .i32⟩ : BufTy).Contents (Elt F)),
    StableHlo.binary main_v3 main_v44 main_v45 (cmpi .slt : (⟨S3200000, .i32⟩ : BufTy).Contents (Elt F) → (⟨S3200000, .i32⟩ : BufTy).Contents (Elt F) → (⟨S3200000, .i1⟩ : BufTy).Contents (Elt F)),
    StableHlo.nullary main_c_8 (constantI S_ 32 100000#32),
    StableHlo.unary main_c_8 main_v46 (broadcastInDim S3200000 ![] bcast_S_S3200000 : (⟨S_, .i32⟩ : BufTy).Contents (Elt F) → (⟨S3200000, .i32⟩ : BufTy).Contents (Elt F)),
    StableHlo.binary main_v3 main_v46 main_v47 (addi : (⟨S3200000, .i32⟩ : BufTy).Contents (Elt F) → (⟨S3200000, .i32⟩ : BufTy).Contents (Elt F) → (⟨S3200000, .i32⟩ : BufTy).Contents (Elt F)),
    StableHlo.ternary main_v45 main_v47 main_v3 main_v48 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) ]
theorem ops0_6_sub : (ops0_6 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 10 operations of @main, window 1, in order. -/
abbrev ops1_0 : List (HloOp τ sig (Elt F)) :=
  [ StableHlo.unary main_v48 main_v49 (broadcastInDim S3200000x1 ![0] bcast_S3200000_S3200000x1_0 : (⟨S3200000, .i32⟩ : BufTy).Contents (Elt F) → (⟨S3200000x1, .i32⟩ : BufTy).Contents (Elt F)),
    StableHlo.binary main_v43 main_v49 main_v50 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.unary main_arg2 main_v51 (broadcastInDim S3200000x1 ![0] bcast_S3200000_S3200000x1_0 : (⟨S3200000, .f32⟩ : BufTy).Contents (Elt F) → (⟨S3200000x1, .f32⟩ : BufTy).Contents (Elt F)),
    StableHlo.unary main_v51 main_v52 (broadcastInDim S3200000x8 ![0, 1] bcast_S3200000x1_S3200000x8_0_1 : (⟨S3200000x1, .f32⟩ : BufTy).Contents (Elt F) → (⟨S3200000x8, .f32⟩ : BufTy).Contents (Elt F)),
    StableHlo.binary main_v50 main_v52 main_v53 (mulf : (⟨S3200000x8, .f32⟩ : BufTy).Contents (Elt F) → (⟨S3200000x8, .f32⟩ : BufTy).Contents (Elt F) → (⟨S3200000x8, .f32⟩ : BufTy).Contents (Elt F)),
    StableHlo.unary main_arg5 main_v54 ((transpose S8x16 [1, 0] · transposes_S16x8_S8x16_1_0) : (⟨S16x8, .f32⟩ : BufTy).Contents (Elt F) → (⟨S8x16, .f32⟩ : BufTy).Contents (Elt F)),
    StableHlo.binary main_v53 main_v54 main_v55 ((fun l r => Host.dotGeneral dot_S3200000x8_S8x16_S3200000x16_1_0_0_1_n_n none l r) : (⟨S3200000x8, .f32⟩ : BufTy).Contents (Elt F) → (⟨S8x16, .f32⟩ : BufTy).Contents (Elt F) → (⟨S3200000x16, .f32⟩ : BufTy).Contents (Elt F)),
    StableHlo.unary main_arg6 main_v56 (broadcastInDim S1x16 ![1] bcast_S16_S1x16_1 : (⟨S16, .f32⟩ : BufTy).Contents (Elt F) → (⟨S1x16, .f32⟩ : BufTy).Contents (Elt F)),
    StableHlo.unary main_v56 main_v57 (broadcastInDim S3200000x16 ![0, 1] bcast_S1x16_S3200000x16_0_1 : (⟨S1x16, .f32⟩ : BufTy).Contents (Elt F) → (⟨S3200000x16, .f32⟩ : BufTy).Contents (Elt F)),
    StableHlo.binary main_v55 main_v57 main_v58 (addf : (⟨S3200000x16, .f32⟩ : BufTy).Contents (Elt F) → (⟨S3200000x16, .f32⟩ : BufTy).Contents (Elt F) → (⟨S3200000x16, .f32⟩ : BufTy).Contents (Elt F)) ]
theorem ops1_0_sub : (ops1_0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- 7 operations of @leaky_relu_3 (main_call3), window 1, in order. -/
abbrev ops1_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S3200000x16, .f32⟩) (broadcastInDim S3200000x16 ![] bcast_S_S3200000x16),
    StableHlo.TRef.binary (.of main_v58 : StableHlo.TRef sig ⟨S3200000x16, .f32⟩) (.of main_call3_v0 : StableHlo.TRef sig ⟨S3200000x16, .f32⟩) (.of main_call3_v1 : StableHlo.TRef sig ⟨S3200000x16, .i1⟩) (cmpf .oge),
    StableHlo.TRef.nullary (.of main_call3_cst_0 : StableHlo.TRef sig ⟨S_, .f32⟩) (constant S_ .f32 0x3C23D70A#32),
    StableHlo.TRef.unary (.of main_call3_cst_0 : StableHlo.TRef sig ⟨S_, .f32⟩) (.of main_call3_v2 : StableHlo.TRef sig ⟨S3200000x16, .f32⟩) (broadcastInDim S3200000x16 ![] bcast_S_S3200000x16),
    StableHlo.TRef.binary (.of main_call3_v2 : StableHlo.TRef sig ⟨S3200000x16, .f32⟩) (.of main_v58 : StableHlo.TRef sig ⟨S3200000x16, .f32⟩) (.of main_call3_v3 : StableHlo.TRef sig ⟨S3200000x16, .f32⟩) mulf,
    StableHlo.TRef.ternary (.of main_call3_v1 : StableHlo.TRef sig ⟨S3200000x16, .i1⟩) (.of main_v58 : StableHlo.TRef sig ⟨S3200000x16, .f32⟩) (.of main_call3_v3 : StableHlo.TRef sig ⟨S3200000x16, .f32⟩) (.of main_v59 : StableHlo.TRef sig ⟨S3200000x16, .f32⟩) select ]
theorem ops1_1_sub : (ops1_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 11 operations of @main, window 1, in order. -/
abbrev ops1_2 : List (HloOp τ sig (Elt F)) :=
  [ StableHlo.nullary main_cst_9 (constant S_ .f32 0x00000000#32),
    StableHlo.unary main_cst_9 main_v60 (broadcastInDim S100000x16 ![] bcast_S_S100000x16 : (⟨S_, .f32⟩ : BufTy).Contents (Elt F) → (⟨S100000x16, .f32⟩ : BufTy).Contents (Elt F)),
    StableHlo.unary main_v1 main_v61 (broadcastInDim S3200000x1 ![0] bcast_S3200000_S3200000x1_0 : (⟨S3200000, .i32⟩ : BufTy).Contents (Elt F) → (⟨S3200000x1, .i32⟩ : BufTy).Contents (Elt F)),
    StableHlo.ternary main_v60 main_v61 main_v59 main_v62 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.unary main_v15 main_v63 (broadcastInDim S100000x16 ![0, 1] bcast_S100000x1_S100000x16_0_1 : (⟨S100000x1, .f32⟩ : BufTy).Contents (Elt F) → (⟨S100000x16, .f32⟩ : BufTy).Contents (Elt F)),
    StableHlo.binary main_v62 main_v63 main_v64 (mulf : (⟨S100000x16, .f32⟩ : BufTy).Contents (Elt F) → (⟨S100000x16, .f32⟩ : BufTy).Contents (Elt F) → (⟨S100000x16, .f32⟩ : BufTy).Contents (Elt F)),
    StableHlo.unary main_arg5 main_v65 ((transpose S8x16 [1, 0] · transposes_S16x8_S8x16_1_0) : (⟨S16x8, .f32⟩ : BufTy).Contents (Elt F) → (⟨S8x16, .f32⟩ : BufTy).Contents (Elt F)),
    StableHlo.binary main_v43 main_v65 main_v66 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.unary main_arg6 main_v67 (broadcastInDim S1x16 ![1] bcast_S16_S1x16_1 : (⟨S16, .f32⟩ : BufTy).Contents (Elt F) → (⟨S1x16, .f32⟩ : BufTy).Contents (Elt F)),
    StableHlo.unary main_v67 main_v68 (broadcastInDim S100000x16 ![0, 1] bcast_S1x16_S100000x16_0_1 : (⟨S1x16, .f32⟩ : BufTy).Contents (Elt F) → (⟨S100000x16, .f32⟩ : BufTy).Contents (Elt F)),
    StableHlo.binary main_v66 main_v68 main_v69 (addf : (⟨S100000x16, .f32⟩ : BufTy).Contents (Elt F) → (⟨S100000x16, .f32⟩ : BufTy).Contents (Elt F) → (⟨S100000x16, .f32⟩ : BufTy).Contents (Elt F)) ]
theorem ops1_2_sub : (ops1_2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- 7 operations of @leaky_relu_5 (main_call4), window 1, in order. -/
abbrev ops1_3 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S100000x16, .f32⟩) (broadcastInDim S100000x16 ![] bcast_S_S100000x16),
    StableHlo.TRef.binary (.of main_v69 : StableHlo.TRef sig ⟨S100000x16, .f32⟩) (.of main_call4_v0 : StableHlo.TRef sig ⟨S100000x16, .f32⟩) (.of main_call4_v1 : StableHlo.TRef sig ⟨S100000x16, .i1⟩) (cmpf .oge),
    StableHlo.TRef.nullary (.of main_call4_cst_0 : StableHlo.TRef sig ⟨S_, .f32⟩) (constant S_ .f32 0x3C23D70A#32),
    StableHlo.TRef.unary (.of main_call4_cst_0 : StableHlo.TRef sig ⟨S_, .f32⟩) (.of main_call4_v2 : StableHlo.TRef sig ⟨S100000x16, .f32⟩) (broadcastInDim S100000x16 ![] bcast_S_S100000x16),
    StableHlo.TRef.binary (.of main_call4_v2 : StableHlo.TRef sig ⟨S100000x16, .f32⟩) (.of main_v69 : StableHlo.TRef sig ⟨S100000x16, .f32⟩) (.of main_call4_v3 : StableHlo.TRef sig ⟨S100000x16, .f32⟩) mulf,
    StableHlo.TRef.ternary (.of main_call4_v1 : StableHlo.TRef sig ⟨S100000x16, .i1⟩) (.of main_v69 : StableHlo.TRef sig ⟨S100000x16, .f32⟩) (.of main_call4_v3 : StableHlo.TRef sig ⟨S100000x16, .f32⟩) (.of main_v70 : StableHlo.TRef sig ⟨S100000x16, .f32⟩) select ]
theorem ops1_3_sub : (ops1_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 18 operations of @main, window 1, in order. -/
abbrev ops1_4 : List (HloOp τ sig (Elt F)) :=
  [ StableHlo.binary main_v64 main_v70 main_v71 (addf : (⟨S100000x16, .f32⟩ : BufTy).Contents (Elt F) → (⟨S100000x16, .f32⟩ : BufTy).Contents (Elt F) → (⟨S100000x16, .f32⟩ : BufTy).Contents (Elt F)),
    StableHlo.nullary main_c_10 (constantI S_ 32 0#32),
    StableHlo.unary main_c_10 main_v72 (broadcastInDim S3200000 ![] bcast_S_S3200000 : (⟨S_, .i32⟩ : BufTy).Contents (Elt F) → (⟨S3200000, .i32⟩ : BufTy).Contents (Elt F)),
    StableHlo.binary main_v3 main_v72 main_v73 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v74 (broadcastInDim S3200000 ![] bcast_S_S3200000 : (⟨S_, .i32⟩ : BufTy).Contents (Elt F) → (⟨S3200000, .i32⟩ : BufTy).Contents (Elt F)),
    StableHlo.binary main_v3 main_v74 main_v75 (addi : (⟨S3200000, .i32⟩ : BufTy).Contents (Elt F) → (⟨S3200000, .i32⟩ : BufTy).Contents (Elt F) → (⟨S3200000, .i32⟩ : BufTy).Contents (Elt F)),
    StableHlo.ternary main_v73 main_v75 main_v3 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v76 main_v77 (broadcastInDim S3200000x1 ![0] bcast_S3200000_S3200000x1_0 : (⟨S3200000, .i32⟩ : BufTy).Contents (Elt F) → (⟨S3200000x1, .i32⟩ : BufTy).Contents (Elt F)),
    StableHlo.binary main_v71 main_v77 main_v78 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_arg2 main_v79 (broadcastInDim S3200000x1 ![0] bcast_S3200000_S3200000x1_0 : (⟨S3200000, .f32⟩ : BufTy).Contents (Elt F) → (⟨S3200000x1, .f32⟩ : BufTy).Contents (Elt F)),
    StableHlo.unary main_v79 main_v80 (broadcastInDim S3200000x16 ![0, 1] bcast_S3200000x1_S3200000x16_0_1 : (⟨S3200000x1, .f32⟩ : BufTy).Contents (Elt F) → (⟨S3200000x16, .f32⟩ : BufTy).Contents (Elt F)),
    StableHlo.binary main_v78 main_v80 main_v81 (mulf : (⟨S3200000x16, .f32⟩ : BufTy).Contents (Elt F) → (⟨S3200000x16, .f32⟩ : BufTy).Contents (Elt F) → (⟨S3200000x16, .f32⟩ : BufTy).Contents (Elt F)),
    StableHlo.unary main_arg7 main_v82 ((transpose S16x32 [1, 0] · transposes_S32x16_S16x32_1_0) : (⟨S32x16, .f32⟩ : BufTy).Contents (Elt F) → (⟨S16x32, .f32⟩ : BufTy).Contents (Elt F)),
    StableHlo.binary main_v81 main_v82 main_v83 ((fun l r => Host.dotGeneral dot_S3200000x16_S16x32_S3200000x32_1_0_0_1_n_n none l r) : (⟨S3200000x16, .f32⟩ : BufTy).Contents (Elt F) → (⟨S16x32, .f32⟩ : BufTy).Contents (Elt F) → (⟨S3200000x32, .f32⟩ : BufTy).Contents (Elt F)),
    StableHlo.unary main_arg8 main_v84 (broadcastInDim S1x32 ![1] bcast_S32_S1x32_1 : (⟨S32, .f32⟩ : BufTy).Contents (Elt F) → (⟨S1x32, .f32⟩ : BufTy).Contents (Elt F)),
    StableHlo.unary main_v84 main_v85 (broadcastInDim S3200000x32 ![0, 1] bcast_S1x32_S3200000x32_0_1 : (⟨S1x32, .f32⟩ : BufTy).Contents (Elt F) → (⟨S3200000x32, .f32⟩ : BufTy).Contents (Elt F)),
    StableHlo.binary main_v83 main_v85 main_v86 (addf : (⟨S3200000x32, .f32⟩ : BufTy).Contents (Elt F) → (⟨S3200000x32, .f32⟩ : BufTy).Contents (Elt F) → (⟨S3200000x32, .f32⟩ : BufTy).Contents (Elt F)) ]
theorem ops1_4_sub : (ops1_4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- 7 operations of @leaky_relu_7 (main_call5), window 1, in order. -/
abbrev ops1_5 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S3200000x32, .f32⟩) (broadcastInDim S3200000x32 ![] bcast_S_S3200000x32),
    StableHlo.TRef.binary (.of main_v86 : StableHlo.TRef sig ⟨S3200000x32, .f32⟩) (.of main_call5_v0 : StableHlo.TRef sig ⟨S3200000x32, .f32⟩) (.of main_call5_v1 : StableHlo.TRef sig ⟨S3200000x32, .i1⟩) (cmpf .oge),
    StableHlo.TRef.nullary (.of main_call5_cst_0 : StableHlo.TRef sig ⟨S_, .f32⟩) (constant S_ .f32 0x3C23D70A#32),
    StableHlo.TRef.unary (.of main_call5_cst_0 : StableHlo.TRef sig ⟨S_, .f32⟩) (.of main_call5_v2 : StableHlo.TRef sig ⟨S3200000x32, .f32⟩) (broadcastInDim S3200000x32 ![] bcast_S_S3200000x32),
    StableHlo.TRef.binary (.of main_call5_v2 : StableHlo.TRef sig ⟨S3200000x32, .f32⟩) (.of main_v86 : StableHlo.TRef sig ⟨S3200000x32, .f32⟩) (.of main_call5_v3 : StableHlo.TRef sig ⟨S3200000x32, .f32⟩) mulf,
    StableHlo.TRef.ternary (.of main_call5_v1 : StableHlo.TRef sig ⟨S3200000x32, .i1⟩) (.of main_v86 : StableHlo.TRef sig ⟨S3200000x32, .f32⟩) (.of main_call5_v3 : StableHlo.TRef sig ⟨S3200000x32, .f32⟩) (.of main_v87 : StableHlo.TRef sig ⟨S3200000x32, .f32⟩) select ]
theorem ops1_5_sub : (ops1_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 11 operations of @main, window 1, in order. -/
abbrev ops1_6 : List (HloOp τ sig (Elt F)) :=
  [ StableHlo.nullary main_cst_12 (constant S_ .f32 0x00000000#32),
    StableHlo.unary main_cst_12 main_v88 (broadcastInDim S100000x32 ![] bcast_S_S100000x32 : (⟨S_, .f32⟩ : BufTy).Contents (Elt F) → (⟨S100000x32, .f32⟩ : BufTy).Contents (Elt F)),
    StableHlo.unary main_v1 main_v89 (broadcastInDim S3200000x1 ![0] bcast_S3200000_S3200000x1_0 : (⟨S3200000, .i32⟩ : BufTy).Contents (Elt F) → (⟨S3200000x1, .i32⟩ : BufTy).Contents (Elt F)),
    StableHlo.ternary main_v88 main_v89 main_v87 main_v90 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_v15 main_v91 (broadcastInDim S100000x32 ![0, 1] bcast_S100000x1_S100000x32_0_1 : (⟨S100000x1, .f32⟩ : BufTy).Contents (Elt F) → (⟨S100000x32, .f32⟩ : BufTy).Contents (Elt F)),
    StableHlo.binary main_v90 main_v91 main_v92 (mulf : (⟨S100000x32, .f32⟩ : BufTy).Contents (Elt F) → (⟨S100000x32, .f32⟩ : BufTy).Contents (Elt F) → (⟨S100000x32, .f32⟩ : BufTy).Contents (Elt F)),
    StableHlo.unary main_arg7 main_v93 ((transpose S16x32 [1, 0] · transposes_S32x16_S16x32_1_0) : (⟨S32x16, .f32⟩ : BufTy).Contents (Elt F) → (⟨S16x32, .f32⟩ : BufTy).Contents (Elt F)),
    StableHlo.binary main_v71 main_v93 main_v94 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg8 main_v95 (broadcastInDim S1x32 ![1] bcast_S32_S1x32_1 : (⟨S32, .f32⟩ : BufTy).Contents (Elt F) → (⟨S1x32, .f32⟩ : BufTy).Contents (Elt F)),
    StableHlo.unary main_v95 main_v96 (broadcastInDim S100000x32 ![0, 1] bcast_S1x32_S100000x32_0_1 : (⟨S1x32, .f32⟩ : BufTy).Contents (Elt F) → (⟨S100000x32, .f32⟩ : BufTy).Contents (Elt F)),
    StableHlo.binary main_v94 main_v96 main_v97 (addf : (⟨S100000x32, .f32⟩ : BufTy).Contents (Elt F) → (⟨S100000x32, .f32⟩ : BufTy).Contents (Elt F) → (⟨S100000x32, .f32⟩ : BufTy).Contents (Elt F)) ]
theorem ops1_6_sub : (ops1_6 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- 7 operations of @leaky_relu_9 (main_call6), window 1, in order. -/
abbrev ops1_7 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x32, .f32⟩) (broadcastInDim S100000x32 ![] bcast_S_S100000x32),
    StableHlo.TRef.binary (.of main_v97 : StableHlo.TRef sig ⟨S100000x32, .f32⟩) (.of main_call6_v0 : StableHlo.TRef sig ⟨S100000x32, .f32⟩) (.of main_call6_v1 : StableHlo.TRef sig ⟨S100000x32, .i1⟩) (cmpf .oge),
    StableHlo.TRef.nullary (.of main_call6_cst_0 : StableHlo.TRef sig ⟨S_, .f32⟩) (constant S_ .f32 0x3C23D70A#32),
    StableHlo.TRef.unary (.of main_call6_cst_0 : StableHlo.TRef sig ⟨S_, .f32⟩) (.of main_call6_v2 : StableHlo.TRef sig ⟨S100000x32, .f32⟩) (broadcastInDim S100000x32 ![] bcast_S_S100000x32),
    StableHlo.TRef.binary (.of main_call6_v2 : StableHlo.TRef sig ⟨S100000x32, .f32⟩) (.of main_v97 : StableHlo.TRef sig ⟨S100000x32, .f32⟩) (.of main_call6_v3 : StableHlo.TRef sig ⟨S100000x32, .f32⟩) mulf,
    StableHlo.TRef.ternary (.of main_call6_v1 : StableHlo.TRef sig ⟨S100000x32, .i1⟩) (.of main_v97 : StableHlo.TRef sig ⟨S100000x32, .f32⟩) (.of main_call6_v3 : StableHlo.TRef sig ⟨S100000x32, .f32⟩) (.of main_v98 : StableHlo.TRef sig ⟨S100000x32, .f32⟩) select ]
theorem ops1_7_sub : (ops1_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- 6 operations of @main, window 1, in order. -/
abbrev ops1_8 : List (HloOp τ sig (Elt F)) :=
  [ StableHlo.binary main_v92 main_v98 main_v99 (addf : (⟨S100000x32, .f32⟩ : BufTy).Contents (Elt F) → (⟨S100000x32, .f32⟩ : BufTy).Contents (Elt F) → (⟨S100000x32, .f32⟩ : BufTy).Contents (Elt F)),
    StableHlo.nullary main_cst_13 (constant S_ .f32 0x00000000#32),
    StableHlo.binary main_v99 main_cst_13 main_v100 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.unary main_v100 main_v101 (broadcastInDim S1x32 ![1] bcast_S32_S1x32_1 : (⟨S32, .f32⟩ : BufTy).Contents (Elt F) → (⟨S1x32, .f32⟩ : BufTy).Contents (Elt F)),
    StableHlo.nullary main_cst_14 (constant S_ .f32 0x47C35000#32),
    StableHlo.unary main_cst_14 main_v102 (broadcastInDim S1x32 ![] bcast_S_S1x32 : (⟨S_, .f32⟩ : BufTy).Contents (Elt F) → (⟨S1x32, .f32⟩ : BufTy).Contents (Elt F)) ]
theorem ops1_8_sub : (ops1_8 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.unary_bufs_sub ..⟩

/-- 5 operations of @main, window 2, in order. -/
abbrev ops2_0 : List (HloOp τ sig (Elt F)) :=
  [ StableHlo.binary main_v101 main_v102 main_v103 (Host.divf : (⟨S1x32, .f32⟩ : BufTy).Contents (Elt F) → (⟨S1x32, .f32⟩ : BufTy).Contents (Elt F) → (⟨S1x32, .f32⟩ : BufTy).Contents (Elt F)),
    StableHlo.unary main_arg9 main_v104 ((transpose S32x2 [1, 0] · transposes_S2x32_S32x2_1_0) : (⟨S2x32, .f32⟩ : BufTy).Contents (Elt F) → (⟨S32x2, .f32⟩ : BufTy).Contents (Elt F)),
    StableHlo.binary main_v103 main_v104 main_v105 ((fun l r => Host.dotGeneral dot_S1x32_S32x2_S1x2_1_0_0_1_n_n none l r) : (⟨S1x32, .f32⟩ : BufTy).Contents (Elt F) → (⟨S32x2, .f32⟩ : BufTy).Contents (Elt F) → (⟨S1x2, .f32⟩ : BufTy).Contents (Elt F)),
    StableHlo.unary main_arg10 main_v106 (broadcastInDim S1x2 ![1] bcast_S2_S1x2_1 : (⟨S2, .f32⟩ : BufTy).Contents (Elt F) → (⟨S1x2, .f32⟩ : BufTy).Contents (Elt F)),
    StableHlo.binary main_v105 main_v106 main_v107 (addf : (⟨S1x2, .f32⟩ : BufTy).Contents (Elt F) → (⟨S1x2, .f32⟩ : BufTy).Contents (Elt F) → (⟨S1x2, .f32⟩ : BufTy).Contents (Elt F)) ]
theorem ops2_0_sub : (ops2_0 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub ..⟩

/-- 15 operations of @log_softmax (main_call7), window 2, in order. -/
abbrev ops2_1 : List (HloOp τ sig (Elt F)) :=
  [ StableHlo.TRef.nullary (.of main_call7_cst : StableHlo.TRef sig ⟨S_, .f32⟩) (constant S_ .f32 0xFF800000#32),
    StableHlo.TRef.binary (.of main_v107 : StableHlo.TRef sig ⟨S1x2, .f32⟩) (.of main_call7_cst : StableHlo.TRef sig ⟨S_, .f32⟩) (.of main_call7_v0 : StableHlo.TRef sig ⟨S1, .f32⟩) (fun x v => Host.reduce FloatOps.maximumf x v reducesTo_S1x2_S1_d1 h_S_),
    StableHlo.TRef.nullary (.of main_call7_cst_0 : StableHlo.TRef sig ⟨S_, .f32⟩) (constant S_ .f32 0xFF800000#32),
    StableHlo.TRef.unary (.of main_call7_cst_0 : StableHlo.TRef sig ⟨S_, .f32⟩) (.of main_call7_v1 : StableHlo.TRef sig ⟨S1, .f32⟩) (broadcastInDim S1 ![] bcast_S_S1),
    StableHlo.TRef.binary (.of main_call7_v1 : StableHlo.TRef sig ⟨S1, .f32⟩) (.of main_call7_v0 : StableHlo.TRef sig ⟨S1, .f32⟩) (.of main_call7_v2 : StableHlo.TRef sig ⟨S1, .f32⟩) maximumf,
    StableHlo.TRef.unary (.of main_call7_v2 : StableHlo.TRef sig ⟨S1, .f32⟩) (.of main_call7_v3 : StableHlo.TRef sig ⟨S1x1, .f32⟩) (broadcastInDim S1x1 ![0] bcast_S1_S1x1_0),
    StableHlo.TRef.unary (.of main_call7_v3 : StableHlo.TRef sig ⟨S1x1, .f32⟩) (.of main_call7_v4 : StableHlo.TRef sig ⟨S1x2, .f32⟩) (broadcastInDim S1x2 ![0, 1] bcast_S1x1_S1x2_0_1),
    StableHlo.TRef.binary (.of main_v107 : StableHlo.TRef sig ⟨S1x2, .f32⟩) (.of main_call7_v4 : StableHlo.TRef sig ⟨S1x2, .f32⟩) (.of main_call7_v5 : StableHlo.TRef sig ⟨S1x2, .f32⟩) subf,
    StableHlo.TRef.unary (.of main_call7_v5 : StableHlo.TRef sig ⟨S1x2, .f32⟩) (.of main_call7_v6 : StableHlo.TRef sig ⟨S1x2, .f32⟩) Host.exp,
    StableHlo.TRef.nullary (.of main_call7_cst_1 : StableHlo.TRef sig ⟨S_, .f32⟩) (constant S_ .f32 0x00000000#32),
    StableHlo.TRef.binary (.of main_call7_v6 : StableHlo.TRef sig ⟨S1x2, .f32⟩) (.of main_call7_cst_1 : StableHlo.TRef sig ⟨S_, .f32⟩) (.of main_call7_v7 : StableHlo.TRef sig ⟨S1, .f32⟩) (fun x v => Host.reduceAdd x v reducesTo_S1x2_S1_d1 h_S_),
    StableHlo.TRef.unary (.of main_call7_v7 : StableHlo.TRef sig ⟨S1, .f32⟩) (.of main_call7_v8 : StableHlo.TRef sig ⟨S1x1, .f32⟩) (broadcastInDim S1x1 ![0] bcast_S1_S1x1_0),
    StableHlo.TRef.unary (.of main_call7_v8 : StableHlo.TRef sig ⟨S1x1, .f32⟩) (.of main_call7_v9 : StableHlo.TRef sig ⟨S1x1, .f32⟩) Host.log,
    StableHlo.TRef.unary (.of main_call7_v9 : StableHlo.TRef sig ⟨S1x1, .f32⟩) (.of main_call7_v10 : StableHlo.TRef sig ⟨S1x2, .f32⟩) (broadcastInDim S1x2 ![0, 1] bcast_S1x1_S1x2_0_1),
    StableHlo.TRef.binary (.of main_call7_v5 : StableHlo.TRef sig ⟨S1x2, .f32⟩) (.of main_call7_v10 : StableHlo.TRef sig ⟨S1x2, .f32⟩) (.of main_v108 : StableHlo.TRef sig ⟨S1x2, .f32⟩) subf ]
theorem ops2_1_sub : (ops2_1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- Window 0 of @main is the chain of its lists, the last in tail position. -/
theorem main_part0_chain (c : Dev nD) : main_part0 (F := F) c = (Pipeline.chainK
  [ StableHlo.seq ops0_0,
    StableHlo.seq ops0_1,
    StableHlo.seq ops0_2,
    StableHlo.seq ops0_3,
    StableHlo.seq ops0_4,
    StableHlo.seq ops0_5 ]
  (StableHlo.seq ops0_6) : Prog (TpuEff nD τ sig (Elt F) (Pipeline.Sig Λ₀ (Fin 0) fun p => (pcfgs (F := F) p).Adm) .tc) PUnit) := by
  chain_rfl

/-- Window 1 of @main is the chain of its lists, the last in tail position. -/
theorem main_part1_chain (c : Dev nD) : main_part1 (F := F) c = (Pipeline.chainK
  [ StableHlo.seq ops1_0,
    StableHlo.seq ops1_1,
    StableHlo.seq ops1_2,
    StableHlo.seq ops1_3,
    StableHlo.seq ops1_4,
    StableHlo.seq ops1_5,
    StableHlo.seq ops1_6,
    StableHlo.seq ops1_7 ]
  (StableHlo.seq ops1_8) : Prog (TpuEff nD τ sig (Elt F) (Pipeline.Sig Λ₀ (Fin 0) fun p => (pcfgs (F := F) p).Adm) .tc) PUnit) := by
  chain_rfl

/-- Window 2 of @main is the chain of its lists. -/
theorem main_part2_chain (c : Dev nD) : main_part2 (F := F) c = (Pipeline.chain
  [ StableHlo.seq ops2_0,
    StableHlo.seq ops2_1 ] : Prog (TpuEff nD τ sig (Elt F) (Pipeline.Sig Λ₀ (Fin 0) fun p => (pcfgs (F := F) p).Adm) .tc) PUnit) := by
  chain_rfl

/-- The lists of @main, in order. -/
abbrev items : List (List (HloOp τ sig (Elt F))) :=
  [ ops0_0, ops0_1, ops0_2, ops0_3, ops0_4, ops0_5, ops0_6, ops1_0, ops1_1, ops1_2, ops1_3, ops1_4, ops1_5, ops1_6, ops1_7, ops1_8, ops2_0, ops2_1 ]

/-- @main is the chain of all its lists. -/
theorem main_chain (c : Dev nD) : main (F := F) c = (Pipeline.chain ((items (F := F)).map StableHlo.seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, main_part0_chain, Pipeline.chainK_bind_chain, Pipeline.chainK_bind_chain]
  chain_rfl

/-- Every operation of every list touches TensorCore references only. -/
theorem items_sub : ∀ l ∈ (items (F := F)), l.Forall fun op => op.bufs ⊆ StableHlo.tcRefs τ sig := by
  intro l hl
  simp only [items, List.mem_cons, List.not_mem_nil, or_false] at hl
  rcases hl with rfl | rfl | rfl | rfl | rfl | rfl | rfl | rfl | rfl | rfl | rfl | rfl | rfl | rfl | rfl | rfl | rfl | rfl
  · exact ops0_0_sub
  · exact ops0_1_sub
  · exact ops0_2_sub
  · exact ops0_3_sub
  · exact ops0_4_sub
  · exact ops0_5_sub
  · exact ops0_6_sub
  · exact ops1_0_sub
  · exact ops1_1_sub
  · exact ops1_2_sub
  · exact ops1_3_sub
  · exact ops1_4_sub
  · exact ops1_5_sub
  · exact ops1_6_sub
  · exact ops1_7_sub
  · exact ops1_8_sub
  · exact ops2_0_sub
  · exact ops2_1_sub

end Cert.ReferenceIdeal.RefOps

end
-- ==== Proof.RefRun.lean ====
/-
  The reference program's run. Its @main is a straight line of host operations (the lists of RefOps, concatenated), so
  every weakly fair execution terminates with each buffer at the fold of the operations over the launch contents.
  Reading that fold at the result buffer gives the function `Spec.out` of the eleven argument arrays — each operation
  of the line is one operation of `Spec`'s stage functions, in the same order on the same operands —, and reading it at
  an argument's buffer gives the argument back, no operation writing one.
-/
import proofs.«158551_j56478819942817_2_alg».proof.Proof.RefOps
import proofs.«158551_j56478819942817_2_alg».proof.Proof.Spec
import Idealize.ShloMosaic.Lib.Pipeline.Frame

set_option maxRecDepth 16384

noncomputable section

namespace Cert.ReferenceIdeal.RefRun

open Cert.ReferenceIdeal Cert.ReferenceIdeal.RefOps
open Idealize.ShloMosaic Idealize.ShloMosaic.TcCoe Idealize.SL.Sem Idealize.ShloMosaic.StableHlo

/-- A chain of straight lines is the straight line of their concatenation. -/
theorem chain_map_seq {nD : Nat} {τ : Topo} {sig : RefSig} {Val : EltTy → Type} {Λ : Labels} :
    ∀ ls : List (List (HloOp τ sig Val)),
      (Pipeline.chain (ls.map seq) : Prog (TpuEff nD τ sig Val Λ .tc) PUnit) = seq ls.flatten
  | [] => rfl
  | l :: ls => by rw [List.map_cons, Pipeline.chain_cons, chain_map_seq ls, List.flatten_cons, seq_append]

variable {F : FTy → Type} [FloatOps F]

/-- @main's operations, in order. -/
abbrev ops : List (HloOp τ sig (Elt F)) := (items (F := F)).flatten

theorem main_eq (c : Dev nD) : main (F := F) c = seq ops := (main_chain c).trans (chain_map_seq _)

theorem ops_sub : (ops : List (HloOp τ sig (Elt F))).Forall fun op => op.bufs ⊆ tcRefs τ sig := by
  rw [List.forall_iff_forall_mem]
  intro op h
  obtain ⟨l, hl, hop⟩ := List.mem_flatten.mp h
  exact (List.forall_iff_forall_mem.mp (items_sub l hl)) op hop

/-- No operation of the line allocates a buffer. -/
theorem ops_fresh : (ops : List (HloOp τ sig (Elt F))).Forall fun op => op.fresh = ∅ := by
  simp only [ops, items, List.flatten_cons, List.flatten_nil, List.append_nil, List.cons_append, List.nil_append, List.Forall]
  repeat' constructor

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.forall_iff_forall_mem.mp ops_fresh) op h)

set_option maxHeartbeats 8000000 in
/-- The fold at the result buffer is `Spec.out` of the arguments: operation by operation the line is the Spec's stages. -/
theorem out_eq (V : Valuation τ sig (Elt F)) :
    after ops V (main_v108 : DevRef τ sig)
      = Spec.out (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp only [ops, items, List.flatten_cons, List.flatten_nil, List.append_nil, List.cons_append, List.nil_append]
  after_results_simp
  rfl

theorem main_arg0_eq (V : Valuation τ sig (Elt F)) : after ops V (main_arg0 : DevRef τ sig) = V (main_arg0 : DevRef τ sig) := by
  simp only [ops, items, List.flatten_cons, List.flatten_nil, List.append_nil, List.cons_append, List.nil_append]
  after_results_simp
theorem main_arg1_eq (V : Valuation τ sig (Elt F)) : after ops V (main_arg1 : DevRef τ sig) = V (main_arg1 : DevRef τ sig) := by
  simp only [ops, items, List.flatten_cons, List.flatten_nil, List.append_nil, List.cons_append, List.nil_append]
  after_results_simp
theorem main_arg2_eq (V : Valuation τ sig (Elt F)) : after ops V (main_arg2 : DevRef τ sig) = V (main_arg2 : DevRef τ sig) := by
  simp only [ops, items, List.flatten_cons, List.flatten_nil, List.append_nil, List.cons_append, List.nil_append]
  after_results_simp
theorem main_arg3_eq (V : Valuation τ sig (Elt F)) : after ops V (main_arg3 : DevRef τ sig) = V (main_arg3 : DevRef τ sig) := by
  simp only [ops, items, List.flatten_cons, List.flatten_nil, List.append_nil, List.cons_append, List.nil_append]
  after_results_simp
theorem main_arg4_eq (V : Valuation τ sig (Elt F)) : after ops V (main_arg4 : DevRef τ sig) = V (main_arg4 : DevRef τ sig) := by
  simp only [ops, items, List.flatten_cons, List.flatten_nil, List.append_nil, List.cons_append, List.nil_append]
  after_results_simp
theorem main_arg5_eq (V : Valuation τ sig (Elt F)) : after ops V (main_arg5 : DevRef τ sig) = V (main_arg5 : DevRef τ sig) := by
  simp only [ops, items, List.flatten_cons, List.flatten_nil, List.append_nil, List.cons_append, List.nil_append]
  after_results_simp
theorem main_arg6_eq (V : Valuation τ sig (Elt F)) : after ops V (main_arg6 : DevRef τ sig) = V (main_arg6 : DevRef τ sig) := by
  simp only [ops, items, List.flatten_cons, List.flatten_nil, List.append_nil, List.cons_append, List.nil_append]
  after_results_simp
theorem main_arg7_eq (V : Valuation τ sig (Elt F)) : after ops V (main_arg7 : DevRef τ sig) = V (main_arg7 : DevRef τ sig) := by
  simp only [ops, items, List.flatten_cons, List.flatten_nil, List.append_nil, List.cons_append, List.nil_append]
  after_results_simp
theorem main_arg8_eq (V : Valuation τ sig (Elt F)) : after ops V (main_arg8 : DevRef τ sig) = V (main_arg8 : DevRef τ sig) := by
  simp only [ops, items, List.flatten_cons, List.flatten_nil, List.append_nil, List.cons_append, List.nil_append]
  after_results_simp
theorem main_arg9_eq (V : Valuation τ sig (Elt F)) : after ops V (main_arg9 : DevRef τ sig) = V (main_arg9 : DevRef τ sig) := by
  simp only [ops, items, List.flatten_cons, List.flatten_nil, List.append_nil, List.cons_append, List.nil_append]
  after_results_simp
theorem main_arg10_eq (V : Valuation τ sig (Elt F)) : after ops V (main_arg10 : DevRef τ sig) = V (main_arg10 : DevRef τ sig) := by
  simp only [ops, items, List.flatten_cons, List.flatten_nil, List.append_nil, List.cons_append, List.nil_append]
  after_results_simp

/-- The reference's run: the result is `Spec.out` of the launch contents of the arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108)
        = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v108).trans (out_eq (launchContents m c)),
     (h c main_arg0).trans (main_arg0_eq (launchContents m c)),
     (h c main_arg1).trans (main_arg1_eq (launchContents m c)),
     (h c main_arg2).trans (main_arg2_eq (launchContents m c)),
     (h c main_arg3).trans (main_arg3_eq (launchContents m c)),
     (h c main_arg4).trans (main_arg4_eq (launchContents m c)),
     (h c main_arg5).trans (main_arg5_eq (launchContents m c)),
     (h c main_arg6).trans (main_arg6_eq (launchContents m c)),
     (h c main_arg7).trans (main_arg7_eq (launchContents m c)),
     (h c main_arg8).trans (main_arg8_eq (launchContents m c)),
     (h c main_arg9).trans (main_arg9_eq (launchContents m c)),
     (h c main_arg10).trans (main_arg10_eq (launchContents m c))⟩)
    (run_all m ρ)

end Cert.ReferenceIdeal.RefRun

end
-- ==== Proof.lean ====
/-
  The certificate of a three-block message-passing network on a graph of 100000 nodes and 3200000 weighted edges.

  Per block with weights `W` and bias `b`, node features `h` become

      h' = (sum over the edges into the node of lrelu ((h[source] · weight) Wᵀ + b)) · invCnt + lrelu (h Wᵀ + b),

  then the mean over the nodes, a linear map to two logits and their log-softmax (`Spec.out`). The reference computes
  every stage with host operations. The kernel program computes the per-edge stage `lrelu ((h[source] · weight) Wᵀ + b)`
  in a Pallas region over 400 blocks of 8000 edges — the products' operands passed through a narrower float format,
  the identity on the extended reals — and everything else (the row lookup, the sum at the targets, the scaling, the
  node's own term, the head) with the same host operations as the reference on the same operands.

  So over the extended reals the two programs are one function, and no law of arithmetic is needed beyond reading the
  layout operations at an index: a row of the per-edge stage reads only that row of its operands, whence the blocks the
  region writes are the blocks of one whole-array function (`Region0/1/2`), which is the reference's stage
  (`EdgeMath`); the host stretches around the regions are read back operation by operation (`KHost`, `RefRun`).
  The precondition (finite inputs) is never opened: nothing here cancels or distributes.

  The frames of the two kernel programs are the generated ones; the reference's is its run with the result dropped;
  the idealization rewrote no operation, so `preserves` is trivial.
-/
import proofs.«158551_j56478819942817_2_alg».proof.Defs
import proofs.«158551_j56478819942817_2_alg».proof.Proof.Gen.Kernel
import proofs.«158551_j56478819942817_2_alg».proof.Proof.Gen.Kernel.Skeleton
import proofs.«158551_j56478819942817_2_alg».proof.Proof.Gen.Kernel.Launch
import proofs.«158551_j56478819942817_2_alg».proof.Proof.Gen.Kernel.Points
import proofs.«158551_j56478819942817_2_alg».proof.Proof.Gen.Kernel.Frame
import proofs.«158551_j56478819942817_2_alg».proof.Proof.Gen.KernelIdeal
import proofs.«158551_j56478819942817_2_alg».proof.Proof.Gen.KernelIdeal.Skeleton
import proofs.«158551_j56478819942817_2_alg».proof.Proof.Gen.KernelIdeal.Launch
import proofs.«158551_j56478819942817_2_alg».proof.Proof.Gen.KernelIdeal.Points
import proofs.«158551_j56478819942817_2_alg».proof.Proof.Gen.KernelIdeal.Frame
import proofs.«158551_j56478819942817_2_alg».proof.Proof.Gen.ReferenceIdeal
import proofs.«158551_j56478819942817_2_alg».proof.Proof.Gen.Pre_finite_inputs
import proofs.«158551_j56478819942817_2_alg».proof.Proof.KRun
import proofs.«158551_j56478819942817_2_alg».proof.Proof.KHost
import proofs.«158551_j56478819942817_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end with `Spec.out` of the argument arrays in their result buffer. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c Cert.KernelIdeal.main_v88 (by decide)).trans (Cert.KernelIdeal.KHost.result_eq m ρ c),
       (h c Cert.KernelIdeal.main_arg0 (by decide)).trans (Cert.KernelIdeal.Gen.W16_main_arg0 m ρ c),
       (h c Cert.KernelIdeal.main_arg1 (by decide)).trans (Cert.KernelIdeal.Gen.W16_main_arg1 m ρ c),
       (h c Cert.KernelIdeal.main_arg2 (by decide)).trans (Cert.KernelIdeal.Gen.W16_main_arg2 m ρ c),
       (h c Cert.KernelIdeal.main_arg3 (by decide)).trans (Cert.KernelIdeal.Gen.W16_main_arg3 m ρ c),
       (h c Cert.KernelIdeal.main_arg4 (by decide)).trans (Cert.KernelIdeal.Gen.W16_main_arg4 m ρ c),
       (h c Cert.KernelIdeal.main_arg5 (by decide)).trans (Cert.KernelIdeal.Gen.W16_main_arg5 m ρ c),
       (h c Cert.KernelIdeal.main_arg6 (by decide)).trans (Cert.KernelIdeal.Gen.W16_main_arg6 m ρ c),
       (h c Cert.KernelIdeal.main_arg7 (by decide)).trans (Cert.KernelIdeal.Gen.W16_main_arg7 m ρ c),
       (h c Cert.KernelIdeal.main_arg8 (by decide)).trans (Cert.KernelIdeal.Gen.W16_main_arg8 m ρ c),
       (h c Cert.KernelIdeal.main_arg9 (by decide)).trans (Cert.KernelIdeal.Gen.W16_main_arg9 m ρ c),
       (h c Cert.KernelIdeal.main_arg10 (by decide)).trans (Cert.KernelIdeal.Gen.W16_main_arg10 m ρ c)⟩)
      (Cert.KernelIdeal.KRun.run_all m ρ)
  · refine (θ_run Cert.ReferenceIdeal.defs _ _).mono (fun r h c => ⟨?_, (h c).2⟩)
      (Cert.ReferenceIdeal.RefRun.run (F := Ideal) m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
